-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x512 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x40960 .f32) (main_arg1 : FVec F S4096x40960 .f32) (main_arg2 : FVec F S256x40960 .f32) (main_arg3 : FVec F S256 .f32) (main_arg4 : FVec F S32x512 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x256 : Shape := ⟨2, ![1, 256]⟩
abbrev S32x256 : Shape := ⟨2, ![32, 256]⟩
abbrev S1x1 : Shape := ⟨2, ![1, 1]⟩
abbrev S4096x1 : Shape := ⟨2, ![4096, 1]⟩
abbrev S1024x1280 : Shape := ⟨2, ![1024, 1280]⟩
abbrev S256x1280 : Shape := ⟨2, ![256, 1280]⟩
abbrev S1024x1 : Shape := ⟨2, ![1024, 1]⟩
abbrev S1024x256 : Shape := ⟨2, ![1024, 256]⟩
abbrev S1280x256 : Shape := ⟨2, ![1280, 256]⟩
abbrev S256x32 : Shape := ⟨2, ![256, 32]⟩
abbrev S1024x32 : Shape := ⟨2, ![1024, 32]⟩
abbrev S32x1 : Shape := ⟨2, ![32, 1]⟩

abbrev nBuf : Space → Nat
  | .hbm => 17
  | .vmem => 18
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1x256, .f32⟩
  | .hbm, ⟨11, _⟩ => ⟨S32x256, .f32⟩
  | .hbm, ⟨12, _⟩ => ⟨S32x256, .f32⟩
  | .hbm, ⟨13, _⟩ => ⟨S1x32, .f32⟩
  | .hbm, ⟨14, _⟩ => ⟨S1x32, .f32⟩
  | .hbm, ⟨15, _⟩ => ⟨S1x1, .f32⟩
  | .hbm, ⟨16, _⟩ => ⟨S4096x1, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S256x1280, .f32⟩
  | .local _ .vmem, ⟨5, _⟩ => ⟨S256x1280, .f32⟩
  | .local _ .vmem, ⟨6, _⟩ => ⟨S1x256, .f32⟩
  | .local _ .vmem, ⟨7, _⟩ => ⟨S32x256, .f32⟩
  | .local _ .vmem, ⟨8, _⟩ => ⟨S32x256, .f32⟩
  | .local _ .vmem, ⟨9, _⟩ => ⟨S1x32, .f32⟩
  | .local _ .vmem, ⟨10, _⟩ => ⟨S32x32, .f32⟩
  | .local _ .vmem, ⟨11, _⟩ => ⟨S1x32, .f32⟩
  | .local _ .vmem, ⟨12, _⟩ => ⟨S1x32, .f32⟩
  | .local _ .vmem, ⟨13, _⟩ => ⟨S1x1, .f32⟩
  | .local _ .vmem, ⟨14, _⟩ => ⟨S1024x1, .f32⟩
  | .local _ .vmem, ⟨15, _⟩ => ⟨S1024x1, .f32⟩
  | .local _ .vmem, ⟨16, _⟩ => ⟨S1024x256, .f32⟩
  | .local _ .vmem, ⟨17, _⟩ => ⟨S1024x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  shapeCasts_S256_S1x256 : S256.ShapeCasts S1x256
  slices_S32x512_S32x256_0_0 : S32x512.Slices ![0, 0] S32x256
  slices_S32x512_S32x256_0_256 : S32x512.Slices ![0, 256] S32x256
  shapeCasts_S32_S1x32 : S32.ShapeCasts S1x32
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1280_S256x1280_0_0 : ∀ a, (![0, 0] : Fin 2 → Nat) a + S256x1280.size a ≤ S256x1280.size a
  h_S256x1280 : 0 < S256x1280.numel
  bitsLt_bf16_f32 : FTy.bits .bf16 < FTy.bits .f32
  inb_S1024x1280_S1024x1280_0_0 : ∀ a, (![0, 0] : Fin 2 → Nat) a + S1024x1280.size a ≤ S1024x1280.size a
  h_S1024x1280 : 0 < S1024x1280.numel
  transposes_S256x1280_p1_0_S1280x256 : S256x1280.Transposes [1, 0] S1280x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1280_S1280x256_S1024x256_1_0_0_1_n_n_wf : DotDims.WF S1024x1280 S1280x256 S1024x256 [1] [0] [0] [1] [] []
  dot_S1024x256_S256x32_S1024x32_1_0_0_1_n_n_wf : DotDims.WF S1024x256 S256x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S4096x40960.size a
  hwx0_0 : ∀ i : grid0.Coords, EltTy.bits .f32 = 32 ∨ (Rect.block (s := S4096x40960) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S4096x40960.size a
  hwx0_1 : ∀ i : grid0.Coords, EltTy.bits .f32 = 32 ∨ (Rect.block (s := S4096x40960) S1024x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1280.size a ≤ S256x40960.size a
  hwx0_2 : ∀ i : grid0.Coords, EltTy.bits .f32 = 32 ∨ (Rect.block (s := S256x40960) S256x1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x256.size a
  hwx0_4 : ∀ i : grid0.Coords, EltTy.bits .f32 = 32 ∨ (Rect.block (s := S32x256) S32x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .f32 = 32 ∨ (Rect.block (s := S32x256) S32x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S4096x1.size a
  hwx0_11 : ∀ i : grid0.Coords, EltTy.bits .f32 = 32 ∨ (Rect.block (s := S4096x1) S1024x1.size (cc0_transform_11 i) (hinb0_11 i)).WholeWords (EltTy.packing .f32)

variable [Facts₀]

def dot_S1024x1280_S1280x256_S1024x256_1_0_0_1_n_n : DotDims S1024x1280 S1280x256 S1024x256 where
  lhsContracting := [1]
  rhsContracting := [0]
  lhsNonContracting := [0]
  rhsNonContracting := [1]
  lhsBatch := []
  rhsBatch := []
  wf := dot_S1024x1280_S1280x256_S1024x256_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x256 : Shape := ⟨2, ![40960, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S4096x1 : Shape := ⟨2, ![4096, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S40960x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S40960x256, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S512x32, .f32⟩
  | .hbm, ⟨30, _⟩ => ⟨S4096x32, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x32, .f32⟩
  | .hbm, ⟨38, _⟩ => ⟨S4096x32, .f32⟩
  | .hbm, ⟨39, _⟩ => ⟨S_, .f32⟩
  | .hbm, ⟨40, _⟩ => ⟨S4096x32, .f32⟩
  | .hbm, ⟨41, _⟩ => ⟨S4096x32, .f32⟩
  | .hbm, ⟨42, _⟩ => ⟨S32x32, .f32⟩
  | .hbm, ⟨43, _⟩ => ⟨S4096x32, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x32, .f32⟩
  | .hbm, ⟨51, _⟩ => ⟨S4096x32, .f32⟩
  | .hbm, ⟨52, _⟩ => ⟨S_, .f32⟩
  | .hbm, ⟨53, _⟩ => ⟨S4096x32, .f32⟩
  | .hbm, ⟨54, _⟩ => ⟨S4096x32, .f32⟩
  | .hbm, ⟨55, _⟩ => ⟨S32x1, .f32⟩
  | .hbm, ⟨56, _⟩ => ⟨S4096x1, .f32⟩
  | .hbm, ⟨57, _⟩ => ⟨S1x1, .f32⟩
  | .hbm, ⟨58, _⟩ => ⟨S4096x1, .f32⟩
  | .hbm, ⟨59, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Spec.lean ====
/-
  The network's value as mathematics, over the extended reals, with no program in sight.

  Each perspective (white, black) is first mapped by one shared linear layer: for a board row `b` and a hidden unit `j`,
  `a j = ∑ f, x[b, f] · w_in[j, f]` over the 40960 input features.  Everything after that sum is the same small function
  of the two rows of sums, `head`: add the bias and clip to [0, 1]; join the two perspectives through the two halves of
  `w_h1` (a sum over the white units plus a sum over the black units, plus the bias) and clip; one more 32 × 32 layer and
  clip; and a last linear read-out.  `net` is the whole array, row by row.

  The only algebra the certificate needs is that a sum over 40960 features may be taken in 32 consecutive stretches of
  1280 (`sum_stretches`): addition of extended reals is commutative and associative, so no finiteness is asked.
-/
import Idealize.ShloMosaic.PureOps.Ideal
import Idealize.ShloMosaic.PureOps.Ideal.Laws
import Idealize.ShloMosaic.Lib.ValueIdx

noncomputable section

open scoped BigOperators

namespace Cert.Nnue

open Idealize.ShloMosaic Idealize.ShloMosaic.ValueIdx

/-- Clipping to the unit interval, the bounds written as the float words the programs carry. -/
def clip (x : EReal) : EReal :=
  min (Ideal.ofBits .f32 0x3F800000#32) (max (Ideal.ofBits .f32 0x00000000#32) x)

/-- First hidden layer, unit `i`: the two clipped perspectives against the two halves of the weight matrix. -/
def h1 (b_in : Fin 256 → EReal) (wa wb : Fin 32 → Fin 256 → EReal) (b_h1 : Fin 32 → EReal)
    (a1 a2 : Fin 256 → EReal) (i : Fin 32) : EReal :=
  clip (((∑ j : Fin 256, clip (a1 j + b_in j) * wa i j) + (∑ j : Fin 256, clip (a2 j + b_in j) * wb i j)) + b_h1 i)

/-- Second hidden layer, unit `i`. -/
def h2 (w_h2 : Fin 32 → Fin 32 → EReal) (b_h2 : Fin 32 → EReal) (x : Fin 32 → EReal) (i : Fin 32) : EReal :=
  clip ((∑ j : Fin 32, x j * w_h2 i j) + b_h2 i)

/-- Everything after the feature sums, for one board row: a function of the two rows of sums `a1`, `a2`. -/
def head (b_in : Fin 256 → EReal) (wa wb : Fin 32 → Fin 256 → EReal) (b_h1 : Fin 32 → EReal)
    (w_h2 : Fin 32 → Fin 32 → EReal) (b_h2 : Fin 32 → EReal) (w_out : Fin 32 → EReal) (b_out : EReal)
    (a1 a2 : Fin 256 → EReal) : EReal :=
  (∑ j : Fin 32, h2 w_h2 b_h2 (h1 b_in wa wb b_h1 a1 a2) j * w_out j) + b_out

/-- The network's result array: row `b` is `head` of the row's two feature sums. -/
def net (x0 x1 : FVec Ideal ⟨2, ![4096, 40960]⟩ .f32) (x2 : FVec Ideal ⟨2, ![256, 40960]⟩ .f32)
    (x3 : FVec Ideal ⟨1, ![256]⟩ .f32) (x4 : FVec Ideal ⟨2, ![32, 512]⟩ .f32) (x5 : FVec Ideal ⟨1, ![32]⟩ .f32)
    (x6 : FVec Ideal ⟨2, ![32, 32]⟩ .f32) (x7 : FVec Ideal ⟨1, ![32]⟩ .f32) (x8 : FVec Ideal ⟨2, ![1, 32]⟩ .f32)
    (x9 : FVec Ideal ⟨1, ![1]⟩ .f32) : FVec Ideal ⟨2, ![4096, 1]⟩ .f32 :=
  fun i => head (fun j => x3 (ix1 j))
    (fun u j => x4 (ix2 u (⟨j.val, by omega⟩ : Fin 512))) (fun u j => x4 (ix2 u (⟨256 + j.val, by omega⟩ : Fin 512)))
    (fun u => x5 (ix1 u)) (fun u j => x6 (ix2 u j)) (fun u => x7 (ix1 u)) (fun j => x8 (ix2 (0 : Fin 1) j)) (x9 (ix1 (0 : Fin 1)))
    (fun j => ∑ f : Fin 40960, x0 (ix2 (⟨(i 0).val, idx2_lt0 i⟩ : Fin 4096) f) * x2 (ix2 j f))
    (fun j => ∑ f : Fin 40960, x1 (ix2 (⟨(i 0).val, idx2_lt0 i⟩ : Fin 4096) f) * x2 (ix2 j f))

/-- A sum over 40960 features is the sum, over the 32 consecutive stretches of 1280, of each stretch's sum. -/
theorem sum_stretches (g : Fin 40960 → EReal) :
    (∑ s ∈ Finset.range 32, ∑ f : Fin 1280, if h : 1280 * s + f.val < 40960 then g ⟨1280 * s + f.val, h⟩ else 0)
      = ∑ k : Fin 40960, g k := by
  rw [Finset.sum_range (fun s => ∑ f : Fin 1280, if h : 1280 * s + f.val < 40960 then g ⟨1280 * s + f.val, h⟩ else 0)]
  rw [← Fintype.sum_prod_type' (fun (s : Fin 32) (f : Fin 1280) => if h : 1280 * s.val + f.val < 40960 then g ⟨1280 * s.val + f.val, h⟩ else 0)]
  rw [← Equiv.sum_comp (finProdFinEquiv (m := 32) (n := 1280)) g]
  refine Finset.sum_congr rfl fun p _ => ?_
  have hp : 1280 * p.1.val + p.2.val < 40960 := by have := p.1.isLt; have := p.2.isLt; omega
  rw [dif_pos hp]
  refine congrArg g (Fin.ext ?_)
  show 1280 * p.1.val + p.2.val = p.2.val + 1280 * p.1.val
  omega

end Cert.Nnue

end
-- ==== Proof.RefNet.lean ====
/-
  The reference program's result, read one operation at a time, is the specification's network.

  Per board row the reference forms the two feature sums (one per perspective) and adds the shared bias, lays the two
  rows of 256 side by side as one row of 512, clips, and contracts all 512 columns against the transposed first weight
  matrix.  A sum over 512 columns is the sum over the first 256 plus the sum over the last 256, which is how the
  specification writes the first hidden layer.  Every later stage is the specification's formula read at an index.
-/
import proofs.«130998_j17420387352988_1_alg».proof.Proof.Gen.ReferenceIdeal.Read
import proofs.«130998_j17420387352988_1_alg».proof.Proof.Spec

noncomputable section

namespace Cert.Nnue.Ref

open Cert.ReferenceIdeal Cert.ReferenceIdeal.Read Idealize.ShloMosaic Idealize.ShloMosaic.ValueIdx
open scoped BigOperators

/-- The white perspective's pre-activation: the feature sum of row `b` against unit `j`, plus the unit's bias. -/
theorem v4_at (x0 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (j : Fin 256) :
    val_main_v4 (F := Ideal) x0 x2 x3 (ix2 b j) = (∑ f : Fin 40960, x0 (ix2 b f) * x2 (ix2 j f)) + x3 (ix1 j) := by
  have el : ∀ k : Fin 40960, lidx_main_v1 (ix2 b j) k = ix2 b k := fun k =>
    funext fun a => Fin.ext (by match a with | ⟨0, _⟩ => rfl | ⟨1, _⟩ => rfl)
  have er : ∀ k : Fin 40960, idx_main_v0 (ridx_main_v1 (ix2 b j) k) = ix2 j k := fun k =>
    funext fun a => Fin.ext (by match a with | ⟨0, _⟩ => rfl | ⟨1, _⟩ => rfl)
  have eb : idx_main_v2 (idx_main_v3 (ix2 b j)) = ix1 j :=
    funext fun a => Fin.ext (by match a with | ⟨0, _⟩ => rfl)
  rw [val_main_v4_apply, val_main_v1_apply, val_main_v3_apply, val_main_v2_apply, eb]
  refine congrArg (· + x3 (ix1 j)) ?_
  refine Finset.sum_congr rfl fun k _ => ?_
  rw [val_main_v0_apply, el, er]

/-- The black perspective's pre-activation, the same layer applied to the other input. -/
theorem v9_at (x1 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (j : Fin 256) :
    val_main_v9 (F := Ideal) x1 x2 x3 (ix2 b j) = (∑ f : Fin 40960, x1 (ix2 b f) * x2 (ix2 j f)) + x3 (ix1 j) := by
  have el : ∀ k : Fin 40960, lidx_main_v6 (ix2 b j) k = ix2 b k := fun k =>
    funext fun a => Fin.ext (by match a with | ⟨0, _⟩ => rfl | ⟨1, _⟩ => rfl)
  have er : ∀ k : Fin 40960, idx_main_v5 (ridx_main_v6 (ix2 b j) k) = ix2 j k := fun k =>
    funext fun a => Fin.ext (by match a with | ⟨0, _⟩ => rfl | ⟨1, _⟩ => rfl)
  have eb : idx_main_v7 (idx_main_v8 (ix2 b j)) = ix1 j :=
    funext fun a => Fin.ext (by match a with | ⟨0, _⟩ => rfl)
  rw [val_main_v9_apply, val_main_v6_apply, val_main_v8_apply, val_main_v7_apply, eb]
  refine congrArg (· + x3 (ix1 j)) ?_
  refine Finset.sum_congr rfl fun k _ => ?_
  rw [val_main_v5_apply, el, er]

/-- The joined row at a column below 256 is the white perspective at that column. -/
theorem v10_left (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (j : Fin 256) :
    val_main_v10 (F := Ideal) x0 x1 x2 x3 (ix2 b (⟨j.val, by omega⟩ : Fin 512)) = val_main_v4 (F := Ideal) x0 x2 x3 (ix2 b j) := by
  unfold val_main_v10
  generalize val_main_v4 (F := Ideal) x0 x2 x3 = y1
  generalize val_main_v9 (F := Ideal) x1 x2 x3 = y2
  exact concatenate_pair_apply_left (1 : Fin S4096x512.rank) y1 y2 Cert.ReferenceIdeal.Gen.concatenates_S4096x256_S4096x256_S4096x512_d1
    (ix2 b (⟨j.val, by omega⟩ : Fin 512)) rfl (ix2 b j) (fun c => by match c with | ⟨0, _⟩ => rfl | ⟨1, _⟩ => rfl)

/-- The joined row at column `256 + j` is the black perspective at column `j`. -/
theorem v10_right (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (j : Fin 256) :
    val_main_v10 (F := Ideal) x0 x1 x2 x3 (ix2 b (⟨256 + j.val, by omega⟩ : Fin 512)) = val_main_v9 (F := Ideal) x1 x2 x3 (ix2 b j) := by
  unfold val_main_v10
  generalize val_main_v4 (F := Ideal) x0 x2 x3 = y1
  generalize val_main_v9 (F := Ideal) x1 x2 x3 = y2
  refine concatenate_pair_apply_right (1 : Fin S4096x512.rank) y1 y2 Cert.ReferenceIdeal.Gen.concatenates_S4096x256_S4096x256_S4096x512_d1
    (ix2 b (⟨256 + j.val, by omega⟩ : Fin 512)) rfl rfl (ix2 b j) (fun c hc => ?_) ?_
  · match c with
    | ⟨0, _⟩ => rfl
    | ⟨1, _⟩ => exact absurd rfl hc
  · show j.val + 256 = 256 + j.val
    omega

/-- The inlined clip of the joined row is the specification's `clip`, entry by entry. -/
theorem v11_at (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (i : S4096x512.Idx) :
    val_main_v11 (F := Ideal) x0 x1 x2 x3 i = Cert.Nnue.clip (val_main_v10 (F := Ideal) x0 x1 x2 x3 i) := by
  rw [val_main_v11_apply, val_main_call0_v4_apply, val_main_call0_v3_apply, val_main_cst_0_apply,
    val_main_call0_v2_apply, val_main_call0_v1_apply, val_main_call0_v0_apply, val_main_cst_apply]
  rfl

/-- A sum over 512 columns is the sum over the first 256 plus the sum over the last 256. -/
theorem sum_halves (g : Fin 512 → EReal) :
    ∑ k : Fin 512, g k
      = (∑ j : Fin 256, g (⟨j.val, by omega⟩ : Fin 512)) + ∑ j : Fin 256, g (⟨256 + j.val, by omega⟩ : Fin 512) :=
  Fin.sum_univ_add (a := 256) (b := 256) g

/-- The first hidden layer before its clip: the contraction over the 512 joined columns, taken as the white half plus
    the black half, plus the unit's bias. -/
theorem v16_at (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (x4 : (⟨S32x512, .f32⟩ : BufTy).Contents (Elt Ideal))
    (x5 : (⟨S32, .f32⟩ : BufTy).Contents (Elt Ideal)) (b : Fin 4096) (u : Fin 32) :
    val_main_v16 (F := Ideal) x0 x1 x2 x3 x4 x5 (ix2 b u)
      = ((∑ j : Fin 256, Cert.Nnue.clip ((∑ f : Fin 40960, x0 (ix2 b f) * x2 (ix2 j f)) + x3 (ix1 j))
            * x4 (ix2 u (⟨j.val, by omega⟩ : Fin 512)))
          + (∑ j : Fin 256, Cert.Nnue.clip ((∑ f : Fin 40960, x1 (ix2 b f) * x2 (ix2 j f)) + x3 (ix1 j))
            * x4 (ix2 u (⟨256 + j.val, by omega⟩ : Fin 512))))
        + x5 (ix1 u) := by
  have el : ∀ k : Fin 512, lidx_main_v13 (ix2 b u) k = ix2 b k := fun k =>
    funext fun a => Fin.ext (by match a with | ⟨0, _⟩ => rfl | ⟨1, _⟩ => rfl)
  have er : ∀ k : Fin 512, idx_main_v12 (ridx_main_v13 (ix2 b u) k) = ix2 u k := fun k =>
    funext fun a => Fin.ext (by match a with | ⟨0, _⟩ => rfl | ⟨1, _⟩ => rfl)
  have eb : idx_main_v14 (idx_main_v15 (ix2 b u)) = ix1 u :=
    funext fun a => Fin.ext (by match a with | ⟨0, _⟩ => rfl)
  rw [val_main_v16_apply, val_main_v13_apply, val_main_v15_apply, val_main_v14_apply, eb]
  refine congrArg (· + x5 (ix1 u)) ?_
  have hk : ∀ k : Fin 512, val_main_v11 (F := Ideal) x0 x1 x2 x3 (lidx_main_v13 (ix2 b u) k)
        * val_main_v12 (F := Ideal) x4 (ridx_main_v13 (ix2 b u) k)
      = Cert.Nnue.clip (val_main_v10 (F := Ideal) x0 x1 x2 x3 (ix2 b k)) * x4 (ix2 u k) := fun k => by
    rw [val_main_v12_apply, el, er, v11_at]
  refine (Finset.sum_congr rfl fun k _ => hk k).trans ?_
  refine (sum_halves fun k => Cert.Nnue.clip (val_main_v10 (F := Ideal) x0 x1 x2 x3 (ix2 b k)) * x4 (ix2 u k)).trans ?_
  refine congrArg₂ (· + ·) (Finset.sum_congr rfl fun j _ => ?_) (Finset.sum_congr rfl fun j _ => ?_)
  · show Cert.Nnue.clip (val_main_v10 (F := Ideal) x0 x1 x2 x3 (ix2 b (⟨j.val, by omega⟩ : Fin 512))) * _ = _
    rw [v10_left, v4_at]
  · show Cert.Nnue.clip (val_main_v10 (F := Ideal) x0 x1 x2 x3 (ix2 b (⟨256 + j.val, by omega⟩ : Fin 512))) * _ = _
    rw [v10_right, v9_at]

/-- The first hidden layer after its clip is the specification's `h1`. -/
theorem v17_at (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (x4 : (⟨S32x512, .f32⟩ : BufTy).Contents (Elt Ideal))
    (x5 : (⟨S32, .f32⟩ : BufTy).Contents (Elt Ideal)) (b : Fin 4096) (u : Fin 32) :
    val_main_v17 (F := Ideal) x0 x1 x2 x3 x4 x5 (ix2 b u)
      = Cert.Nnue.h1 (fun j => x3 (ix1 j))
          (fun u j => x4 (ix2 u (⟨j.val, by omega⟩ : Fin 512))) (fun u j => x4 (ix2 u (⟨256 + j.val, by omega⟩ : Fin 512)))
          (fun u => x5 (ix1 u))
          (fun j => ∑ f : Fin 40960, x0 (ix2 b f) * x2 (ix2 j f))
          (fun j => ∑ f : Fin 40960, x1 (ix2 b f) * x2 (ix2 j f)) u := by
  rw [val_main_v17_apply, val_main_call1_v4_apply, val_main_call1_v3_apply, val_main_cst_2_apply,
    val_main_call1_v2_apply, val_main_call1_v1_apply, val_main_call1_v0_apply, val_main_cst_1_apply, v16_at]
  rfl

/-- The second hidden layer is the specification's `h2` of the first hidden layer's row. -/
theorem v23_at (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (x4 : (⟨S32x512, .f32⟩ : BufTy).Contents (Elt Ideal))
    (x5 : (⟨S32, .f32⟩ : BufTy).Contents (Elt Ideal)) (x6 : (⟨S32x32, .f32⟩ : BufTy).Contents (Elt Ideal))
    (x7 : (⟨S32, .f32⟩ : BufTy).Contents (Elt Ideal)) (b : Fin 4096) (u : Fin 32) :
    val_main_v23 (F := Ideal) x0 x1 x2 x3 x4 x5 x6 x7 (ix2 b u)
      = Cert.Nnue.h2 (fun u j => x6 (ix2 u j)) (fun u => x7 (ix1 u))
          (fun k => val_main_v17 (F := Ideal) x0 x1 x2 x3 x4 x5 (ix2 b k)) u := by
  have el : ∀ k : Fin 32, lidx_main_v19 (ix2 b u) k = ix2 b k := fun k =>
    funext fun a => Fin.ext (by match a with | ⟨0, _⟩ => rfl | ⟨1, _⟩ => rfl)
  have er : ∀ k : Fin 32, idx_main_v18 (ridx_main_v19 (ix2 b u) k) = ix2 u k := fun k =>
    funext fun a => Fin.ext (by match a with | ⟨0, _⟩ => rfl | ⟨1, _⟩ => rfl)
  have eb : idx_main_v20 (idx_main_v21 (ix2 b u)) = ix1 u :=
    funext fun a => Fin.ext (by match a with | ⟨0, _⟩ => rfl)
  have hs : (∑ k : Fin 32, val_main_v17 (F := Ideal) x0 x1 x2 x3 x4 x5 (lidx_main_v19 (ix2 b u) k)
        * val_main_v18 (F := Ideal) x6 (ridx_main_v19 (ix2 b u) k))
      = ∑ k : Fin 32, val_main_v17 (F := Ideal) x0 x1 x2 x3 x4 x5 (ix2 b k) * x6 (ix2 u k) :=
    Finset.sum_congr rfl fun k _ => by rw [val_main_v18_apply, el, er]
  rw [val_main_v23_apply, val_main_call2_v4_apply, val_main_call2_v3_apply, val_main_cst_4_apply,
    val_main_call2_v2_apply, val_main_call2_v1_apply, val_main_call2_v0_apply, val_main_cst_3_apply,
    val_main_v22_apply, val_main_v19_apply, val_main_v21_apply, val_main_v20_apply, eb]
  exact congrArg (fun s => Cert.Nnue.clip (s + x7 (ix1 u))) hs

/-- The read-out: the second hidden layer's row against the output weights, plus the output bias. -/
theorem v28_at (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (x4 : (⟨S32x512, .f32⟩ : BufTy).Contents (Elt Ideal))
    (x5 : (⟨S32, .f32⟩ : BufTy).Contents (Elt Ideal)) (x6 : (⟨S32x32, .f32⟩ : BufTy).Contents (Elt Ideal))
    (x7 : (⟨S32, .f32⟩ : BufTy).Contents (Elt Ideal)) (x8 : (⟨S1x32, .f32⟩ : BufTy).Contents (Elt Ideal))
    (x9 : (⟨S1, .f32⟩ : BufTy).Contents (Elt Ideal)) (b : Fin 4096) (c : Fin 1) :
    val_main_v28 (F := Ideal) x0 x1 x2 x3 x4 x5 x6 x7 x8 x9 (ix2 b c)
      = (∑ j : Fin 32, val_main_v23 (F := Ideal) x0 x1 x2 x3 x4 x5 x6 x7 (ix2 b j) * x8 (ix2 (0 : Fin 1) j))
        + x9 (ix1 (0 : Fin 1)) := by
  have hc : c.val = 0 := by omega
  have el : ∀ k : Fin 32, lidx_main_v25 (ix2 b c) k = ix2 b k := fun k =>
    funext fun a => Fin.ext (by match a with | ⟨0, _⟩ => rfl | ⟨1, _⟩ => rfl)
  have er : ∀ k : Fin 32, idx_main_v24 (ridx_main_v25 (ix2 b c) k) = ix2 (0 : Fin 1) k := fun k =>
    funext fun a => Fin.ext (by match a with | ⟨0, _⟩ => exact hc | ⟨1, _⟩ => rfl)
  have eb : idx_main_v26 (idx_main_v27 (ix2 b c)) = ix1 (0 : Fin 1) :=
    funext fun a => Fin.ext (by match a with | ⟨0, _⟩ => rfl)
  rw [val_main_v28_apply, val_main_v25_apply, val_main_v27_apply, val_main_v26_apply, eb]
  refine congrArg (· + x9 (ix1 (0 : Fin 1))) ?_
  refine Finset.sum_congr rfl fun k _ => ?_
  rw [val_main_v24_apply, el, er]

/-- One board row of the reference's result is the specification's `head` of the row's two feature sums. -/
theorem row_eq (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (x4 : (⟨S32x512, .f32⟩ : BufTy).Contents (Elt Ideal))
    (x5 : (⟨S32, .f32⟩ : BufTy).Contents (Elt Ideal)) (x6 : (⟨S32x32, .f32⟩ : BufTy).Contents (Elt Ideal))
    (x7 : (⟨S32, .f32⟩ : BufTy).Contents (Elt Ideal)) (x8 : (⟨S1x32, .f32⟩ : BufTy).Contents (Elt Ideal))
    (x9 : (⟨S1, .f32⟩ : BufTy).Contents (Elt Ideal)) (b : Fin 4096) (c : Fin 1) :
    val_main_v28 (F := Ideal) x0 x1 x2 x3 x4 x5 x6 x7 x8 x9 (ix2 b c)
      = Cert.Nnue.head (fun j => x3 (ix1 j))
          (fun u j => x4 (ix2 u (⟨j.val, by omega⟩ : Fin 512))) (fun u j => x4 (ix2 u (⟨256 + j.val, by omega⟩ : Fin 512)))
          (fun u => x5 (ix1 u)) (fun u j => x6 (ix2 u j)) (fun u => x7 (ix1 u))
          (fun j => x8 (ix2 (0 : Fin 1) j)) (x9 (ix1 (0 : Fin 1)))
          (fun j => ∑ f : Fin 40960, x0 (ix2 b f) * x2 (ix2 j f))
          (fun j => ∑ f : Fin 40960, x1 (ix2 b f) * x2 (ix2 j f)) := by
  rw [v28_at]
  unfold Cert.Nnue.head
  refine congrArg (· + x9 (ix1 (0 : Fin 1))) (Finset.sum_congr rfl fun j _ => ?_)
  refine congrArg (· * x8 (ix2 (0 : Fin 1) j)) ?_
  refine (v23_at x0 x1 x2 x3 x4 x5 x6 x7 b j).trans ?_
  exact congrArg (fun h => Cert.Nnue.h2 (fun u j => x6 (ix2 u j)) (fun u => x7 (ix1 u)) h j)
    (funext fun k => v17_at x0 x1 x2 x3 x4 x5 b k)

/-- The reference program's result is the specification's network. -/
theorem ref_eq (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S1x32, .f32⟩ : BufTy).Contents (Elt Ideal)) (x9 : (⟨S1, .f32⟩ : BufTy).Contents (Elt Ideal)) :
    Cert.ReferenceIdeal.Read.val_main_v28 (F := Ideal) x0 x1 x2 x3 x4 x5 x6 x7 x8 x9 = Cert.Nnue.net x0 x1 x2 x3 x4 x5 x6 x7 x8 x9 := by
  funext i
  obtain ⟨b, c, rfl⟩ : ∃ (b : Fin 4096) (c : Fin 1), i = ix2 b c := ⟨i 0, i 1, eq_ix2 i⟩
  exact row_eq x0 x1 x2 x3 x4 x5 x6 x7 x8 x9 b c

end Cert.Nnue.Ref

end
-- ==== Proof.Pieces.lean ====
/-
  What one grid point leaves behind, as values.

  The kernel walks a 4 × 32 grid: 4 tiles of 1024 board rows, and for each tile the 32 consecutive stretches of 1280
  input features.  Two accumulators (one per perspective, 1024 × 256) live across the 32 stretches of a tile.  At every
  point the body adds, to each accumulator, the products of the point's feature block with the matching block of the
  shared first-layer weights (`k0_pay4` for white, `k0_pay5` for black: accumulator + block · blockᵀ); at a tile's first
  stretch the accumulators are cleared first; at a tile's last stretch the rest of the network (`k0_pay7`, `k0_pay8`,
  `k0_pay6`) is applied to the two finished accumulators and the 1024 × 1 result block is stored.

  Each lemma below says that what a case of the body leaves in an accumulator, or in the result block, is exactly that
  arithmetic of the point's input blocks and of what the accumulators held before, for any float instance.
-/
import proofs.«130998_j17420387352988_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Nnue.Pieces
open Cert.KernelIdeal Cert.KernelIdeal.Gen
variable {F : FTy → Type} [FloatOps F]

/-- The zero offset of a block that is read or stored whole. -/
theorem hz : (![0, 0] : Fin 2 → Nat) = fun _ => 0 := funext fun a => by fin_cases a <;> rfl

/-- At a first feature stretch the white accumulator is cleared and the stretch's products are added to the cleared block:
    what is left is the step function applied to the zero block. -/
theorem scratch0_A (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : cond0_0 i) (hc1 : ¬cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay4 x2 x0 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1024x256) hz, View.readCov_unit_zero (S := S1024x256) _ hz]
  simp only [View.readAt_eq_ld, harg2.read_unread, harg4.read_unread, View.ld_unit_zero (S := S1024x1280) hz, View.ld_unit_zero (S := S256x1280) hz, View.ld_unit_zero (S := S1024x256) hz]

/-- At a first feature stretch the black accumulator is cleared and the stretch's products are added to the cleared block:
    what is left is the step function applied to the zero block. -/
theorem scratch1_A (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : cond0_0 i) (hc1 : ¬cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay5 x2 x1 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1024x256) hz, View.readCov_unit_zero (S := S1024x256) _ hz]
  simp only [View.readAt_eq_ld, harg3.read_unread, harg4.read_unread, View.ld_unit_zero (S := S1024x1280) hz, View.ld_unit_zero (S := S256x1280) hz, View.ld_unit_zero (S := S1024x256) hz]

/-- At a middle stretch the white accumulator gains the stretch's products. -/
theorem scratch0_B (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : ¬cond0_0 i) (hc1 : ¬cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) (xs0 xs1 : Vec F S1024x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 x2 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  rw [View.canon_unit_zero hz]
  simp only [View.readAt_eq_ld, harg2.read_unread, harg4.read_unread, harg14.read_unread, View.ld_unit_zero (S := S1024x1280) hz, View.ld_unit_zero (S := S256x1280) hz, View.ld_unit_zero (S := S1024x256) hz]

/-- At a middle stretch the black accumulator gains the stretch's products. -/
theorem scratch1_B (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : ¬cond0_0 i) (hc1 : ¬cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) (xs0 xs1 : Vec F S1024x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 x2 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  rw [View.canon_unit_zero hz]
  simp only [View.readAt_eq_ld, harg3.read_unread, harg4.read_unread, harg15.read_unread, View.ld_unit_zero (S := S1024x1280) hz, View.ld_unit_zero (S := S256x1280) hz, View.ld_unit_zero (S := S1024x256) hz]

/-- At a tile's last stretch the white accumulator gains the last stretch's products. -/
theorem scratch0_C (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : ¬cond0_0 i) (hc1 : cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) (xs0 xs1 : Vec F S1024x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 x2 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg4.read_unread, harg14.read_unread, View.ld_unit_zero (S := S1024x1280) hz, View.ld_unit_zero (S := S256x1280) hz, View.ld_unit_zero (S := S1024x256) hz]

/-- At a tile's last stretch the black accumulator gains the last stretch's products. -/
theorem scratch1_C (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : ¬cond0_0 i) (hc1 : cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) (xs0 xs1 : Vec F S1024x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 x2 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg3.read_unread, harg4.read_unread, harg15.read_unread, View.ld_unit_zero (S := S1024x1280) hz, View.ld_unit_zero (S := S256x1280) hz, View.ld_unit_zero (S := S1024x256) hz]

/-- At a tile's last stretch the result block is the rest of the network applied to the two accumulators as they stand
    after the last stretch's products were added. -/
theorem out_C (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S1x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x256 .f32) (harg14 : arg14.IsWhole) (arg15 : Memref sig .tc .vmem S1024x256 .f32) (harg15 : arg15.IsWhole) (hc0 : ¬cond0_0 i) (hc1 : cond0_1 i) (x0 x1 : Vec F S1024x1280 .f32) (x2 : Vec F S256x1280 .f32) (x3 : Vec F S1x256 .f32) (x4 x5 : Vec F S32x256 .f32) (x6 : Vec F S1x32 .f32) (x7 : Vec F S32x32 .f32) (x8 x9 : Vec F S1x32 .f32) (x10 : Vec F S1x1 .f32) (xs0 xs1 : Vec F S1024x256 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay6 (k0_pay7 (k0_pay4 x2 x0 xs0) x3 (k0_pay5 x2 x1 xs1) x3 x4 x5 x6) k0_pay8 x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1280) hz, View.ld_unit_zero (S := S256x1280) hz, View.ld_unit_zero (S := S1024x256) hz, View.ld_unit_zero (S := S1x256) hz, View.ld_unit_zero (S := S32x256) hz, View.ld_unit_zero (S := S1x32) hz, View.ld_unit_zero (S := S32x32) hz, View.ld_unit_zero (S := S1x1) hz]

end Cert.Nnue.Pieces

end
-- ==== Proof.Blocks.lean ====
/-
  The kernel's input blocks, read off the argument arrays.

  At grid point `t` (tile `t / 32` of 1024 board rows, feature stretch `t % 32` of 1280 features) the kernel sees:
  rows `1024 (t / 32) + r` and features `1280 (t % 32) + f` of the two feature arrays; all 256 rows and the same
  feature stretch of the shared first-layer weights; and, whole at every point, the small arrays — the first bias as a
  row, the two halves of the second weight matrix (columns 0–255 and 256–511), the remaining biases as rows, the third
  weight matrix, the read-out row and the read-out bias.  The reshapes and the two column slices are done on the
  arrays before the grid starts; each is read back here at an index.
-/
import proofs.«130998_j17420387352988_1_alg».proof.Proof.Gen.KernelIdeal.Frame
import Idealize.ShloMosaic.Lib.ValueIdx
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Nnue.Blocks
open Cert.KernelIdeal Cert.KernelIdeal.Gen Idealize.ShloMosaic.ValueIdx
variable {F : FTy → Type} [FloatOps F]
variable (m : (ℓ : Loc nD τ sig) → Buf (Elt F) ℓ)

/-! ## Which block each window shows at a point -/

theorem idx0 : ∀ t : Fin cfg0.N, win0_0.index t (0 : Fin 2) = t.val / 32 ∧ win0_0.index t (1 : Fin 2) = t.val % 32 :=
  (by decide +kernel : ∀ t : Fin grid0.N, _)
theorem idx1 : ∀ t : Fin cfg0.N, win0_1.index t (0 : Fin 2) = t.val / 32 ∧ win0_1.index t (1 : Fin 2) = t.val % 32 :=
  (by decide +kernel : ∀ t : Fin grid0.N, _)
theorem idx2 : ∀ t : Fin cfg0.N, win0_2.index t (0 : Fin 2) = 0 ∧ win0_2.index t (1 : Fin 2) = t.val % 32 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val / 32 ∧ win0_11.index t (1 : Fin 2) = 0 :=
  (by decide +kernel : ∀ t : Fin grid0.N, _)

/-! ## The three large inputs -/

/-- The white feature block at point `t`. -/
theorem blk0 (c : Dev nD) (t : Fin cfg0.N) (r : Fin 1024) (f : Fin 1280) :
    (iblk m c 0 t : Vec F S1024x1280 .f32) (ix2 r f)
      = m ((c : Thread nD τ).loc main_arg0) (ix2 (⟨1024 * (t.val / 32) + r.val, by have h := lt_of_lt_of_eq t.isLt (show cfg0.N = 128 from N_0); omega⟩ : Fin 4096) (⟨1280 * (t.val % 32) + f.val, by omega⟩ : Fin 40960)) := by
  unfold iblk
  rw [View.read_apply]
  show V m c main_arg0 _ = _
  rw [V_main_arg0]
  refine congrArg _ (funext fun a => Fin.ext ?_)
  match a with
  | ⟨0, _⟩ => show win0_0.index t 0 * 1024 + 1 * r.val = 1024 * (t.val / 32) + r.val; rw [(idx0 t).1]; omega
  | ⟨1, _⟩ => show win0_0.index t 1 * 1280 + 1 * f.val = 1280 * (t.val % 32) + f.val; rw [(idx0 t).2]; omega

/-- The black feature block at point `t`. -/
theorem blk1 (c : Dev nD) (t : Fin cfg0.N) (r : Fin 1024) (f : Fin 1280) :
    (iblk m c 1 t : Vec F S1024x1280 .f32) (ix2 r f)
      = m ((c : Thread nD τ).loc main_arg1) (ix2 (⟨1024 * (t.val / 32) + r.val, by have h := lt_of_lt_of_eq t.isLt (show cfg0.N = 128 from N_0); omega⟩ : Fin 4096) (⟨1280 * (t.val % 32) + f.val, by omega⟩ : Fin 40960)) := by
  unfold iblk
  rw [View.read_apply]
  show V m c main_arg1 _ = _
  rw [V_main_arg1]
  refine congrArg _ (funext fun a => Fin.ext ?_)
  match a with
  | ⟨0, _⟩ => show win0_1.index t 0 * 1024 + 1 * r.val = 1024 * (t.val / 32) + r.val; rw [(idx1 t).1]; omega
  | ⟨1, _⟩ => show win0_1.index t 1 * 1280 + 1 * f.val = 1280 * (t.val % 32) + f.val; rw [(idx1 t).2]; omega

/-- The first-layer weight block at point `t`: every unit, the point's feature stretch. -/
theorem blk2 (c : Dev nD) (t : Fin cfg0.N) (j : Fin 256) (f : Fin 1280) :
    (iblk m c 2 t : Vec F S256x1280 .f32) (ix2 j f)
      = m ((c : Thread nD τ).loc main_arg2) (ix2 j (⟨1280 * (t.val % 32) + f.val, by omega⟩ : Fin 40960)) := by
  unfold iblk
  rw [View.read_apply]
  show V m c main_arg2 _ = _
  rw [V_main_arg2]
  refine congrArg _ (funext fun a => Fin.ext ?_)
  match a with
  | ⟨0, _⟩ => show win0_2.index t 0 * 256 + 1 * j.val = j.val; rw [(idx2 t).1]; omega
  | ⟨1, _⟩ => show win0_2.index t 1 * 1280 + 1 * f.val = 1280 * (t.val % 32) + f.val; rw [(idx2 t).2]; omega

/-! ## The arrays prepared before the grid -/

theorem v0_eq (c : Dev nD) : (V m c main_v0 : Vec F S1x256 .f32) = shapeCast S1x256 (m ((c : Thread nD τ).loc main_arg3)) shapeCasts_S256_S1x256 := by
  dsimp only [V, hostOps0]; after_results; rfl
theorem v1_eq (c : Dev nD) : (V m c main_v1 : Vec F S32x256 .f32) = extractStridedSlice S32x256 ![0, 0] (m ((c : Thread nD τ).loc main_arg4)) slices_S32x512_S32x256_0_0 := by
  dsimp only [V, hostOps0]; after_results
theorem v2_eq (c : Dev nD) : (V m c main_v2 : Vec F S32x256 .f32) = extractStridedSlice S32x256 ![0, 256] (m ((c : Thread nD τ).loc main_arg4)) slices_S32x512_S32x256_0_256 := by
  dsimp only [V, hostOps0]; after_results
theorem v3_eq (c : Dev nD) : (V m c main_v3 : Vec F S1x32 .f32) = shapeCast S1x32 (m ((c : Thread nD τ).loc main_arg5)) shapeCasts_S32_S1x32 := by
  dsimp only [V, hostOps0]; after_results; rfl
theorem v4_eq (c : Dev nD) : (V m c main_v4 : Vec F S1x32 .f32) = shapeCast S1x32 (m ((c : Thread nD τ).loc main_arg7)) shapeCasts_S32_S1x32 := by
  dsimp only [V, hostOps0]; after_results; rfl
theorem v5_eq (c : Dev nD) : (V m c main_v5 : Vec F S1x1 .f32) = shapeCast S1x1 (m ((c : Thread nD τ).loc main_arg9)) shapeCasts_S1_S1x1 := by
  dsimp only [V, hostOps0]; after_results; rfl

/-- A vector laid out as one row, read in that row. -/
theorem row_apply {n : Nat} (v : (⟨1, ![n]⟩ : Shape).Idx → Elt F .f32) (h : (⟨1, ![n]⟩ : Shape).ShapeCasts ⟨2, ![1, n]⟩) (z : Fin 1) (j : Fin n) :
    shapeCast (⟨2, ![1, n]⟩ : Shape) v h (ix2 z j) = v (ix1 j) := by
  refine (shapeCast_addUnit_apply ![n] v h (ix2 z j)).trans (congrArg v (funext fun a => ?_))
  match a with
  | ⟨0, _⟩ => rfl

/-! ## The small inputs, whole at every point -/

/-- The first bias, as the row the kernel sees. -/
theorem blk3 (c : Dev nD) (t : Fin cfg0.N) (z : Fin 1) (j : Fin 256) :
    (iblk m c 3 t : Vec F S1x256 .f32) (ix2 z j) = m ((c : Thread nD τ).loc main_arg3) (ix1 j) := by
  unfold iblk
  rw [View.read_apply]
  show V m c main_v0 _ = _
  rw [v0_eq]
  have e : ((cfg0.win 3).blk t).view.emb (ix2 z j) = (ix2 z j : S1x256.Idx) := funext fun a => Fin.ext (by
    match a with
    | ⟨0, _⟩ => show win0_3.index t 0 * 1 + 1 * z.val = z.val; rw [(idx3 t).1]; omega
    | ⟨1, _⟩ => show win0_3.index t 1 * 256 + 1 * j.val = j.val; rw [(idx3 t).2]; omega)
  rw [e]
  exact row_apply _ _ z j

/-- Columns 0–255 of the second weight matrix. -/
theorem blk4 (c : Dev nD) (t : Fin cfg0.N) (u : Fin 32) (j : Fin 256) :
    (iblk m c 4 t : Vec F S32x256 .f32) (ix2 u j) = m ((c : Thread nD τ).loc main_arg4) (ix2 u (⟨j.val, by omega⟩ : Fin 512)) := by
  unfold iblk
  rw [View.read_apply]
  show V m c main_v1 _ = _
  rw [v1_eq]
  refine extractStridedSlice_apply _ _ _ _ _ fun a => ?_
  match a with
  | ⟨0, _⟩ => show u.val = 0 + (win0_4.index t 0 * 32 + 1 * u.val); rw [(idx4 t).1]; omega
  | ⟨1, _⟩ => show j.val = 0 + (win0_4.index t 1 * 256 + 1 * j.val); rw [(idx4 t).2]; omega

/-- Columns 256–511 of the second weight matrix. -/
theorem blk5 (c : Dev nD) (t : Fin cfg0.N) (u : Fin 32) (j : Fin 256) :
    (iblk m c 5 t : Vec F S32x256 .f32) (ix2 u j) = m ((c : Thread nD τ).loc main_arg4) (ix2 u (⟨256 + j.val, by omega⟩ : Fin 512)) := by
  unfold iblk
  rw [View.read_apply]
  show V m c main_v2 _ = _
  rw [v2_eq]
  refine extractStridedSlice_apply _ _ _ _ _ fun a => ?_
  match a with
  | ⟨0, _⟩ => show u.val = 0 + (win0_5.index t 0 * 32 + 1 * u.val); rw [(idx5 t).1]; omega
  | ⟨1, _⟩ => show 256 + j.val = 256 + (win0_5.index t 1 * 256 + 1 * j.val); rw [(idx5 t).2]; omega

/-- The second bias as a row. -/
theorem blk6 (c : Dev nD) (t : Fin cfg0.N) (z : Fin 1) (u : Fin 32) :
    (iblk m c 6 t : Vec F S1x32 .f32) (ix2 z u) = m ((c : Thread nD τ).loc main_arg5) (ix1 u) := by
  unfold iblk
  rw [View.read_apply]
  show V m c main_v3 _ = _
  rw [v3_eq]
  have e : ((cfg0.win 6).blk t).view.emb (ix2 z u) = (ix2 z u : S1x32.Idx) := funext fun a => Fin.ext (by
    match a with
    | ⟨0, _⟩ => show win0_6.index t 0 * 1 + 1 * z.val = z.val; rw [(idx6 t).1]; omega
    | ⟨1, _⟩ => show win0_6.index t 1 * 32 + 1 * u.val = u.val; rw [(idx6 t).2]; omega)
  rw [e]
  exact row_apply _ _ z u

/-- The third weight matrix. -/
theorem blk7 (c : Dev nD) (t : Fin cfg0.N) (u j : Fin 32) :
    (iblk m c 7 t : Vec F S32x32 .f32) (ix2 u j) = m ((c : Thread nD τ).loc main_arg6) (ix2 u j) := by
  unfold iblk
  rw [View.read_apply]
  show V m c main_arg6 _ = _
  rw [V_main_arg6]
  refine congrArg _ (funext fun a => Fin.ext ?_)
  match a with
  | ⟨0, _⟩ => show win0_7.index t 0 * 32 + 1 * u.val = u.val; rw [(idx7 t).1]; omega
  | ⟨1, _⟩ => show win0_7.index t 1 * 32 + 1 * j.val = j.val; rw [(idx7 t).2]; omega

/-- The third bias as a row. -/
theorem blk8 (c : Dev nD) (t : Fin cfg0.N) (z : Fin 1) (u : Fin 32) :
    (iblk m c 8 t : Vec F S1x32 .f32) (ix2 z u) = m ((c : Thread nD τ).loc main_arg7) (ix1 u) := by
  unfold iblk
  rw [View.read_apply]
  show V m c main_v4 _ = _
  rw [v4_eq]
  have e : ((cfg0.win 8).blk t).view.emb (ix2 z u) = (ix2 z u : S1x32.Idx) := funext fun a => Fin.ext (by
    match a with
    | ⟨0, _⟩ => show win0_8.index t 0 * 1 + 1 * z.val = z.val; rw [(idx8 t).1]; omega
    | ⟨1, _⟩ => show win0_8.index t 1 * 32 + 1 * u.val = u.val; rw [(idx8 t).2]; omega)
  rw [e]
  exact row_apply _ _ z u

/-- The read-out row. -/
theorem blk9 (c : Dev nD) (t : Fin cfg0.N) (z : Fin 1) (j : Fin 32) :
    (iblk m c 9 t : Vec F S1x32 .f32) (ix2 z j) = m ((c : Thread nD τ).loc main_arg8) (ix2 z j) := by
  unfold iblk
  rw [View.read_apply]
  show V m c main_arg8 _ = _
  rw [V_main_arg8]
  refine congrArg _ (funext fun a => Fin.ext ?_)
  match a with
  | ⟨0, _⟩ => show win0_9.index t 0 * 1 + 1 * z.val = z.val; rw [(idx9 t).1]; omega
  | ⟨1, _⟩ => show win0_9.index t 1 * 32 + 1 * j.val = j.val; rw [(idx9 t).2]; omega

/-- The read-out bias. -/
theorem blk10 (c : Dev nD) (t : Fin cfg0.N) (z z' : Fin 1) :
    (iblk m c 10 t : Vec F S1x1 .f32) (ix2 z z') = m ((c : Thread nD τ).loc main_arg9) (ix1 z') := by
  unfold iblk
  rw [View.read_apply]
  show V m c main_v5 _ = _
  rw [v5_eq]
  have e : ((cfg0.win 10).blk t).view.emb (ix2 z z') = (ix2 z z' : S1x1.Idx) := funext fun a => Fin.ext (by
    match a with
    | ⟨0, _⟩ => show win0_10.index t 0 * 1 + 1 * z.val = z.val; rw [(idx10 t).1]; omega
    | ⟨1, _⟩ => show win0_10.index t 1 * 1 + 1 * z'.val = z'.val; rw [(idx10 t).2]; omega)
  rw [e]
  exact row_apply _ _ z z'

end Cert.Nnue.Blocks

end
-- ==== Proof.Payload.lean ====
/-
  The kernel body's arithmetic, read one element at a time over the extended reals.

  Every product the body forms contracts the second axis of its left operand against the first axis of its right
  operand, into a zero accumulator, so an element of it is a plain finite sum of products.  The right operand is always
  a transposed weight matrix, so the sum runs along a row of the weights.  Rounding to the narrower float format is the
  identity on extended reals, a shape cast to the same shape is the identity, and a one-row array broadcast down the
  rows reads its one row.  Reading the body's last value this way gives exactly the network's `head` of the two rows of
  accumulated feature sums.
-/
import proofs.«130998_j17420387352988_1_alg».proof.Proof.Gen.KernelIdeal.Skeleton
import proofs.«130998_j17420387352988_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Nnue.Payload

open Cert.KernelIdeal Cert.KernelIdeal.Gen Idealize.ShloMosaic Idealize.ShloMosaic.ValueIdx
/-- A product into the zero splat, for the 1024×1280 by 1280×256 dot, read at an index: the plain sum over the
    contraction's 1280 positions. -/
theorem mm_feat_apply (a : FVec Ideal S1024x1280 .bf16) (b : FVec Ideal S1280x256 .bf16) (r : Fin 1024) (j : Fin 256) :
    matmul dot_S1024x1280_S1280x256_S1024x256_1_0_0_1_n_n none a b (constant S1024x256 .f32 0x00000000#32) (ix2 r j)
      = ∑ f : Fin 1280, a (ix2 r f) * b (ix2 f j) := by
  show FloatOps.matmul dot_S1024x1280_S1280x256_S1024x256_1_0_0_1_n_n none a b (constant S1024x256 .f32 0x00000000#32) (ix2 r j) = _
  rw [Ideal.matmul_constant_zero_apply, ← Equiv.sum_comp (contrEquiv1 dot_S1024x1280_S1280x256_S1024x256_1_0_0_1_n_n 1280 rfl rfl).symm]
  refine Finset.sum_congr rfl fun k _ => ?_
  have hk := contrEquiv1_symm_val dot_S1024x1280_S1280x256_S1024x256_1_0_0_1_n_n 1280 rfl rfl k
  have el : dot_S1024x1280_S1280x256_S1024x256_1_0_0_1_n_n.lhsIdx (ix2 r j) ((contrEquiv1 dot_S1024x1280_S1280x256_S1024x256_1_0_0_1_n_n 1280 rfl rfl).symm k) = ix2 r k := funext fun ax => Fin.ext (by
    match ax with
    | ⟨0, _⟩ =>
      show (dot_S1024x1280_S1280x256_S1024x256_1_0_0_1_n_n.lhsIdx (ix2 r j) _ 0).val = r.val
      unfold DotDims.lhsIdx
      rw [dif_neg (show ¬(0 : Fin S1024x1280.rank) ∈ dot_S1024x1280_S1280x256_S1024x256_1_0_0_1_n_n.lhsBatch by decide), dif_pos (show (0 : Fin S1024x1280.rank) ∈ dot_S1024x1280_S1280x256_S1024x256_1_0_0_1_n_n.lhsNonContracting by decide)]
      rfl
    | ⟨1, _⟩ => exact (dot_S1024x1280_S1280x256_S1024x256_1_0_0_1_n_n.lhsIdx_val_of_single rfl (ix2 r j) _).trans hk)
  have er : dot_S1024x1280_S1280x256_S1024x256_1_0_0_1_n_n.rhsIdx (ix2 r j) ((contrEquiv1 dot_S1024x1280_S1280x256_S1024x256_1_0_0_1_n_n 1280 rfl rfl).symm k) = ix2 k j := funext fun ax => Fin.ext (by
    match ax with
    | ⟨0, _⟩ => exact (dot_S1024x1280_S1280x256_S1024x256_1_0_0_1_n_n.rhsIdx_val_of_single rfl (ix2 r j) _).trans hk
    | ⟨1, _⟩ =>
      show (dot_S1024x1280_S1280x256_S1024x256_1_0_0_1_n_n.rhsIdx (ix2 r j) _ 1).val = j.val
      unfold DotDims.rhsIdx
      rw [dif_neg (show ¬(1 : Fin S1280x256.rank) ∈ dot_S1024x1280_S1280x256_S1024x256_1_0_0_1_n_n.rhsBatch by decide), dif_pos (show (1 : Fin S1280x256.rank) ∈ dot_S1024x1280_S1280x256_S1024x256_1_0_0_1_n_n.rhsNonContracting by decide)]
      rfl)
  rw [el, er]

theorem acc_white_apply (v3 : Vec Ideal S256x1280 .f32) (v5 : Vec Ideal S1024x1280 .f32) (v9 : Vec Ideal S1024x256 .f32) (r : Fin 1024) (j : Fin 256) :
    k0_pay4 v3 v5 v9 (ix2 r j) = v9 (ix2 r j) + ∑ f : Fin 1280, v5 (ix2 r f) * v3 (ix2 j f) := by
  unfold k0_pay4 k0_pay3
  rw [shapeCast_self]
  refine (addf_apply (s := S1024x256) _ _ _).trans ?_
  refine congrArg (v9 (ix2 r j) + ·) ?_
  refine (mm_feat_apply _ _ r j).trans ?_
  refine Finset.sum_congr rfl fun f _ => ?_
  rw [transpose_ix2_apply]
  rfl

theorem acc_black_apply (v3 : Vec Ideal S256x1280 .f32) (v7 : Vec Ideal S1024x1280 .f32) (v16 : Vec Ideal S1024x256 .f32) (r : Fin 1024) (j : Fin 256) :
    k0_pay5 v3 v7 v16 (ix2 r j) = v16 (ix2 r j) + ∑ f : Fin 1280, v7 (ix2 r f) * v3 (ix2 j f) := by
  unfold k0_pay5 k0_pay3
  rw [shapeCast_self]
  refine (addf_apply (s := S1024x256) _ _ _).trans ?_
  refine congrArg (v16 (ix2 r j) + ·) ?_
  refine (mm_feat_apply _ _ r j).trans ?_
  refine Finset.sum_congr rfl fun f _ => ?_
  rw [transpose_ix2_apply]
  rfl

theorem zero1_apply (y : S1024x256.Idx) : k0_pay1 (F := Ideal) y = 0 := by
  unfold k0_pay1
  rw [shapeCast_self]
  exact Ideal.ofBits_zero_f32

theorem zero2_apply (y : S1024x256.Idx) : k0_pay2 (F := Ideal) y = 0 := by
  unfold k0_pay2
  rw [shapeCast_self]
  exact Ideal.ofBits_zero_f32

/-- The same for the 1024×256 by 256×32 dot: the sum over the 256 hidden units of one perspective. -/
theorem mm_h1_apply (a : FVec Ideal S1024x256 .bf16) (b : FVec Ideal S256x32 .bf16) (r : Fin 1024) (c : Fin 32) :
    matmul dot_S1024x256_S256x32_S1024x32_1_0_0_1_n_n none a b (constant S1024x32 .f32 0x00000000#32) (ix2 r c)
      = ∑ j : Fin 256, a (ix2 r j) * b (ix2 j c) := by
  show FloatOps.matmul dot_S1024x256_S256x32_S1024x32_1_0_0_1_n_n none a b (constant S1024x32 .f32 0x00000000#32) (ix2 r c) = _
  rw [Ideal.matmul_constant_zero_apply, ← Equiv.sum_comp (contrEquiv1 dot_S1024x256_S256x32_S1024x32_1_0_0_1_n_n 256 rfl rfl).symm]
  refine Finset.sum_congr rfl fun k _ => ?_
  have hk := contrEquiv1_symm_val dot_S1024x256_S256x32_S1024x32_1_0_0_1_n_n 256 rfl rfl k
  have el : dot_S1024x256_S256x32_S1024x32_1_0_0_1_n_n.lhsIdx (ix2 r c) ((contrEquiv1 dot_S1024x256_S256x32_S1024x32_1_0_0_1_n_n 256 rfl rfl).symm k) = ix2 r k := funext fun ax => Fin.ext (by
    match ax with
    | ⟨0, _⟩ =>
      show (dot_S1024x256_S256x32_S1024x32_1_0_0_1_n_n.lhsIdx (ix2 r c) _ 0).val = r.val
      unfold DotDims.lhsIdx
      rw [dif_neg (show ¬(0 : Fin S1024x256.rank) ∈ dot_S1024x256_S256x32_S1024x32_1_0_0_1_n_n.lhsBatch by decide), dif_pos (show (0 : Fin S1024x256.rank) ∈ dot_S1024x256_S256x32_S1024x32_1_0_0_1_n_n.lhsNonContracting by decide)]
      rfl
    | ⟨1, _⟩ => exact (dot_S1024x256_S256x32_S1024x32_1_0_0_1_n_n.lhsIdx_val_of_single rfl (ix2 r c) _).trans hk)
  have er : dot_S1024x256_S256x32_S1024x32_1_0_0_1_n_n.rhsIdx (ix2 r c) ((contrEquiv1 dot_S1024x256_S256x32_S1024x32_1_0_0_1_n_n 256 rfl rfl).symm k) = ix2 k c := funext fun ax => Fin.ext (by
    match ax with
    | ⟨0, _⟩ => exact (dot_S1024x256_S256x32_S1024x32_1_0_0_1_n_n.rhsIdx_val_of_single rfl (ix2 r c) _).trans hk
    | ⟨1, _⟩ =>
      show (dot_S1024x256_S256x32_S1024x32_1_0_0_1_n_n.rhsIdx (ix2 r c) _ 1).val = c.val
      unfold DotDims.rhsIdx
      rw [dif_neg (show ¬(1 : Fin S256x32.rank) ∈ dot_S1024x256_S256x32_S1024x32_1_0_0_1_n_n.rhsBatch by decide), dif_pos (show (1 : Fin S256x32.rank) ∈ dot_S1024x256_S256x32_S1024x32_1_0_0_1_n_n.rhsNonContracting by decide)]
      rfl)
  rw [el, er]

/-- The same for the 1024×32 by 32×32 dot. -/
theorem mm_h2_apply (a : FVec Ideal S1024x32 .bf16) (b : FVec Ideal S32x32 .bf16) (r : Fin 1024) (c : Fin 32) :
    matmul dot_S1024x32_S32x32_S1024x32_1_0_0_1_n_n none a b (constant S1024x32 .f32 0x00000000#32) (ix2 r c)
      = ∑ j : Fin 32, a (ix2 r j) * b (ix2 j c) := by
  show FloatOps.matmul dot_S1024x32_S32x32_S1024x32_1_0_0_1_n_n none a b (constant S1024x32 .f32 0x00000000#32) (ix2 r c) = _
  rw [Ideal.matmul_constant_zero_apply, ← Equiv.sum_comp (contrEquiv1 dot_S1024x32_S32x32_S1024x32_1_0_0_1_n_n 32 rfl rfl).symm]
  refine Finset.sum_congr rfl fun k _ => ?_
  have hk := contrEquiv1_symm_val dot_S1024x32_S32x32_S1024x32_1_0_0_1_n_n 32 rfl rfl k
  have el : dot_S1024x32_S32x32_S1024x32_1_0_0_1_n_n.lhsIdx (ix2 r c) ((contrEquiv1 dot_S1024x32_S32x32_S1024x32_1_0_0_1_n_n 32 rfl rfl).symm k) = ix2 r k := funext fun ax => Fin.ext (by
    match ax with
    | ⟨0, _⟩ =>
      show (dot_S1024x32_S32x32_S1024x32_1_0_0_1_n_n.lhsIdx (ix2 r c) _ 0).val = r.val
      unfold DotDims.lhsIdx
      rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
      rfl
    | ⟨1, _⟩ => exact (dot_S1024x32_S32x32_S1024x32_1_0_0_1_n_n.lhsIdx_val_of_single rfl (ix2 r c) _).trans hk)
  have er : dot_S1024x32_S32x32_S1024x32_1_0_0_1_n_n.rhsIdx (ix2 r c) ((contrEquiv1 dot_S1024x32_S32x32_S1024x32_1_0_0_1_n_n 32 rfl rfl).symm k) = ix2 k c := funext fun ax => Fin.ext (by
    match ax with
    | ⟨0, _⟩ => exact (dot_S1024x32_S32x32_S1024x32_1_0_0_1_n_n.rhsIdx_val_of_single rfl (ix2 r c) _).trans hk
    | ⟨1, _⟩ =>
      show (dot_S1024x32_S32x32_S1024x32_1_0_0_1_n_n.rhsIdx (ix2 r c) _ 1).val = c.val
      unfold DotDims.rhsIdx
      rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
      rfl)
  rw [el, er]

/-- The same for the 1024×32 by 32×1 dot: the read-out's sum over the 32 units. -/
theorem mm_out_apply (a : FVec Ideal S1024x32 .bf16) (b : FVec Ideal S32x1 .bf16) (r : Fin 1024) (c : Fin 1) :
    matmul dot_S1024x32_S32x1_S1024x1_1_0_0_1_n_n none a b (constant S1024x1 .f32 0x00000000#32) (ix2 r c)
      = ∑ j : Fin 32, a (ix2 r j) * b (ix2 j c) := by
  show FloatOps.matmul dot_S1024x32_S32x1_S1024x1_1_0_0_1_n_n none a b (constant S1024x1 .f32 0x00000000#32) (ix2 r c) = _
  rw [Ideal.matmul_constant_zero_apply, ← Equiv.sum_comp (contrEquiv1 dot_S1024x32_S32x1_S1024x1_1_0_0_1_n_n 32 rfl rfl).symm]
  refine Finset.sum_congr rfl fun k _ => ?_
  have hk := contrEquiv1_symm_val dot_S1024x32_S32x1_S1024x1_1_0_0_1_n_n 32 rfl rfl k
  have el : dot_S1024x32_S32x1_S1024x1_1_0_0_1_n_n.lhsIdx (ix2 r c) ((contrEquiv1 dot_S1024x32_S32x1_S1024x1_1_0_0_1_n_n 32 rfl rfl).symm k) = ix2 r k := funext fun ax => Fin.ext (by
    match ax with
    | ⟨0, _⟩ =>
      show (dot_S1024x32_S32x1_S1024x1_1_0_0_1_n_n.lhsIdx (ix2 r c) _ 0).val = r.val
      unfold DotDims.lhsIdx
      rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
      rfl
    | ⟨1, _⟩ => exact (dot_S1024x32_S32x1_S1024x1_1_0_0_1_n_n.lhsIdx_val_of_single rfl (ix2 r c) _).trans hk)
  have er : dot_S1024x32_S32x1_S1024x1_1_0_0_1_n_n.rhsIdx (ix2 r c) ((contrEquiv1 dot_S1024x32_S32x1_S1024x1_1_0_0_1_n_n 32 rfl rfl).symm k) = ix2 k c := funext fun ax => Fin.ext (by
    match ax with
    | ⟨0, _⟩ => exact (dot_S1024x32_S32x1_S1024x1_1_0_0_1_n_n.rhsIdx_val_of_single rfl (ix2 r c) _).trans hk
    | ⟨1, _⟩ =>
      show (dot_S1024x32_S32x1_S1024x1_1_0_0_1_n_n.rhsIdx (ix2 r c) _ 1).val = c.val
      unfold DotDims.rhsIdx
      rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
      rfl)
  rw [el, er]

/-- Clipping to the unit interval as the body writes it — the larger of the zero splat and the value, then the smaller
    of the one splat and that, then rounding to the narrower format — read at an index: `clip` of the value there. -/
theorem clipped_apply {s : Shape} (x : FVec Ideal s .f32) (i : s.Idx) :
    (truncf .bf16 (minimumf (broadcast s (FloatOps.ofBits (F := Ideal) .f32 0x3F800000#32))
        (maximumf (broadcast s (FloatOps.ofBits (F := Ideal) .f32 0x00000000#32)) x)) bitsLt_bf16_f32 : FVec Ideal s .bf16) i
      = clip (x i) := rfl

/-- The first hidden layer before its upper clip, unit `i` of row `r`: each perspective's accumulated sums plus the
    bias, clipped, against that perspective's weight rows; the two sums added, then the layer's bias; then the larger
    of zero and that. -/
theorem layer1_apply (s0 : Vec Ideal S1024x256 .f32) (b0 : Vec Ideal S1x256 .f32) (s1 : Vec Ideal S1024x256 .f32) (b1 : Vec Ideal S1x256 .f32)
    (x4 x5 : Vec Ideal S32x256 .f32) (x6 : Vec Ideal S1x32 .f32) (r : Fin 1024) (i : Fin 32) :
    k0_pay7 s0 b0 s1 b1 x4 x5 x6 (ix2 r i)
      = max (Ideal.ofBits .f32 0x00000000#32)
          (((∑ j : Fin 256, clip (s0 (ix2 r j) + b0 (ix2 (0 : Fin 1) j)) * x4 (ix2 i j))
            + (∑ j : Fin 256, clip (s1 (ix2 r j) + b1 (ix2 (0 : Fin 1) j)) * x5 (ix2 i j))) + x6 (ix2 (0 : Fin 1) i)) := by
  unfold k0_pay7
  simp only [shapeCast_self]
  refine (maximumf_apply (s := S1024x32) _ _ (ix2 r i)).trans ?_
  refine congrArg₂ max rfl ?_
  refine (addf_apply (s := S1024x32) _ _ _).trans ?_
  refine congrArg₂ (· + ·) ?_ (broadcastTo_1b_ab_apply _ _ r i)
  refine (addf_apply (s := S1024x32) _ _ _).trans ?_
  refine congrArg₂ (· + ·) ?_ ?_
  · refine (mm_h1_apply _ _ r i).trans (Finset.sum_congr rfl fun j _ => ?_)
    rw [transpose_ix2_apply]
    refine congrArg₂ (· * ·) ?_ rfl
    refine (clipped_apply _ _).trans (congrArg clip ?_)
    refine (addf_apply (s := S1024x256) _ _ _).trans ?_
    exact congrArg₂ (· + ·) rfl (broadcastTo_1b_ab_apply _ _ r j)
  · refine (mm_h1_apply _ _ r i).trans (Finset.sum_congr rfl fun j _ => ?_)
    rw [transpose_ix2_apply]
    refine congrArg₂ (· * ·) ?_ rfl
    refine (clipped_apply _ _).trans (congrArg clip ?_)
    refine (addf_apply (s := S1024x256) _ _ _).trans ?_
    exact congrArg₂ (· + ·) rfl (broadcastTo_1b_ab_apply _ _ r j)

/-- Everything after the first layer's lower clip, over any two arrays `v62`, `v63` standing for that layer's value
    and its upper bound: the smaller of the two feeds the second layer, whose clipped units feed the read-out. -/
theorem tail_apply (v62 v63 : FVec Ideal S1024x32 .f32) (x7 : Vec Ideal S32x32 .f32) (x8 x9 : Vec Ideal S1x32 .f32)
    (x10 : Vec Ideal S1x1 .f32) (r : Fin 1024) (z : Fin 1) :
    k0_pay6 v62 v63 x7 x8 x9 x10 (ix2 r z)
      = (∑ j : Fin 32, clip ((∑ u : Fin 32, min (v63 (ix2 r u)) (v62 (ix2 r u)) * x7 (ix2 j u)) + x8 (ix2 (0 : Fin 1) j))
            * x9 (ix2 (0 : Fin 1) j))
          + x10 (ix2 (0 : Fin 1) (0 : Fin 1)) := by
  obtain rfl : z = 0 := Subsingleton.elim _ _
  unfold k0_pay6
  simp only [shapeCast_self]
  refine (addf_apply (s := S1024x1) _ _ _).trans ?_
  refine congrArg₂ (· + ·) ?_ (broadcastTo_1b_ab_apply _ _ r 0)
  refine (mm_out_apply _ _ r 0).trans (Finset.sum_congr rfl fun j _ => ?_)
  rw [transpose_ix2_apply]
  refine congrArg₂ (· * ·) ?_ rfl
  refine (clipped_apply _ _).trans (congrArg clip ?_)
  refine (addf_apply (s := S1024x32) _ _ _).trans ?_
  refine congrArg₂ (· + ·) ?_ (broadcastTo_1b_ab_apply _ _ r j)
  refine (mm_h2_apply _ _ r j).trans (Finset.sum_congr rfl fun u _ => ?_)
  rw [transpose_ix2_apply]
  rfl

/-- The body's last value at row `r` is the network's `head` of the row's two accumulated feature sums. -/
theorem out_apply (s0 s1 : Vec Ideal S1024x256 .f32) (x3 : Vec Ideal S1x256 .f32) (x4 x5 : Vec Ideal S32x256 .f32) (x6 : Vec Ideal S1x32 .f32) (x7 : Vec Ideal S32x32 .f32) (x8 x9 : Vec Ideal S1x32 .f32) (x10 : Vec Ideal S1x1 .f32) (r : Fin 1024) (z : Fin 1) :
    k0_pay6 (k0_pay7 s0 x3 s1 x3 x4 x5 x6) k0_pay8 x7 x8 x9 x10 (ix2 r z)
      = Cert.Nnue.head (fun j => x3 (ix2 (0 : Fin 1) j)) (fun u j => x4 (ix2 u j)) (fun u j => x5 (ix2 u j)) (fun u => x6 (ix2 (0 : Fin 1) u))
          (fun u j => x7 (ix2 u j)) (fun u => x8 (ix2 (0 : Fin 1) u)) (fun j => x9 (ix2 (0 : Fin 1) j)) (x10 (ix2 (0 : Fin 1) (0 : Fin 1)))
          (fun j => s0 (ix2 r j)) (fun j => s1 (ix2 r j)) := by
  refine (tail_apply _ _ x7 x8 x9 x10 r z).trans ?_
  unfold Cert.Nnue.head Cert.Nnue.h2 Cert.Nnue.h1
  refine congrArg₂ (· + ·) (Finset.sum_congr rfl fun j _ => ?_) rfl
  refine congrArg₂ (· * ·) (congrArg clip ?_) rfl
  refine congrArg₂ (· + ·) (Finset.sum_congr rfl fun u _ => ?_) rfl
  refine congrArg₂ (· * ·) ?_ rfl
  exact congrArg (min (Ideal.ofBits .f32 0x3F800000#32)) (layer1_apply s0 x3 s1 x3 x4 x5 x6 r u)

end Cert.Nnue.Payload

end
-- ==== Proof.Accum.lean ====
/-
  What the two accumulators hold after each grid point.

  Fix a tile `q` (board rows `1024 q … 1024 q + 1023`).  Its 32 points are the feature stretches `s = 0 … 31`, in order.
  After the point of stretch `s` the white accumulator holds, at row `r` and unit `j`,

      0 + ∑ s' ≤ s, ∑ f < 1280, white[1024 q + r, 1280 s' + f] · w_in[j, 1280 s' + f]

  and the black accumulator the same with the black features: the first stretch clears the accumulator and adds its
  products, every later stretch adds its products to what the stretch before left.  Induction on the stretch.
-/
import proofs.«130998_j17420387352988_1_alg».proof.Proof.Gen.KernelIdeal.Frame
import proofs.«130998_j17420387352988_1_alg».proof.Proof.Spec
import proofs.«130998_j17420387352988_1_alg».proof.Proof.Pieces
import proofs.«130998_j17420387352988_1_alg».proof.Proof.Blocks
import proofs.«130998_j17420387352988_1_alg».proof.Proof.Payload
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

open scoped BigOperators

namespace Cert.Nnue.Accum
open Cert.KernelIdeal Cert.KernelIdeal.Gen Idealize.ShloMosaic.ValueIdx
variable (m : (ℓ : Loc nD τ sig) → Buf (Elt Ideal) ℓ)

/-- The products of feature stretch `s` for board row `b` and hidden unit `j`, summed over the stretch. -/
def part (x : FVec Ideal ⟨2, ![4096, 40960]⟩ .f32) (w : FVec Ideal ⟨2, ![256, 40960]⟩ .f32) (b : Fin 4096) (j : Fin 256) (s : Nat) : EReal :=
  ∑ f : Fin 1280, if h : 1280 * s + f.val < 40960 then x (ix2 b ⟨1280 * s + f.val, h⟩) * w (ix2 j ⟨1280 * s + f.val, h⟩) else 0

/-- The whole feature sum for board row `b` and hidden unit `j`. -/
def full (x : FVec Ideal ⟨2, ![4096, 40960]⟩ .f32) (w : FVec Ideal ⟨2, ![256, 40960]⟩ .f32) (b : Fin 4096) (j : Fin 256) : EReal :=
  ∑ f : Fin 40960, x (ix2 b f) * w (ix2 j f)

/-- All 32 stretches together are the whole feature sum. -/
theorem sum_part (x : FVec Ideal ⟨2, ![4096, 40960]⟩ .f32) (w : FVec Ideal ⟨2, ![256, 40960]⟩ .f32) (b : Fin 4096) (j : Fin 256) :
    (∑ s ∈ Finset.range 32, part x w b j s) = full x w b j :=
  Cert.Nnue.sum_stretches (fun k => x (ix2 b k) * w (ix2 j k))

/-- The white feature block of the point at tile `q`, stretch `s`. -/
theorem white_at (c : Dev nD) (t : Fin cfg0.N) (q s : Nat) (hq : q < 4) (hs : s < 32) (ht : t.val = 32 * q + s) (r : Fin 1024) (f : Fin 1280) :
    (iblk m c 0 t : Vec Ideal S1024x1280 .f32) (ix2 r f)
      = m ((c : Thread nD τ).loc main_arg0) (ix2 (⟨1024 * q + r.val, by omega⟩ : Fin 4096) (⟨1280 * s + f.val, by omega⟩ : Fin 40960)) := by
  refine (Blocks.blk0 m c t r f).trans (congrArg _ (funext fun a => ?_))
  match a with
  | ⟨0, _⟩ => exact Fin.ext (by show 1024 * (t.val / 32) + r.val = 1024 * q + r.val; omega)
  | ⟨1, _⟩ => exact Fin.ext (by show 1280 * (t.val % 32) + f.val = 1280 * s + f.val; omega)

/-- The black feature block of the point at tile `q`, stretch `s`. -/
theorem black_at (c : Dev nD) (t : Fin cfg0.N) (q s : Nat) (hq : q < 4) (hs : s < 32) (ht : t.val = 32 * q + s) (r : Fin 1024) (f : Fin 1280) :
    (iblk m c 1 t : Vec Ideal S1024x1280 .f32) (ix2 r f)
      = m ((c : Thread nD τ).loc main_arg1) (ix2 (⟨1024 * q + r.val, by omega⟩ : Fin 4096) (⟨1280 * s + f.val, by omega⟩ : Fin 40960)) := by
  refine (Blocks.blk1 m c t r f).trans (congrArg _ (funext fun a => ?_))
  match a with
  | ⟨0, _⟩ => exact Fin.ext (by show 1024 * (t.val / 32) + r.val = 1024 * q + r.val; omega)
  | ⟨1, _⟩ => exact Fin.ext (by show 1280 * (t.val % 32) + f.val = 1280 * s + f.val; omega)

/-- The weight block of the point at stretch `s`. -/
theorem weight_at (c : Dev nD) (t : Fin cfg0.N) (q s : Nat) (hs : s < 32) (ht : t.val = 32 * q + s) (j : Fin 256) (f : Fin 1280) :
    (iblk m c 2 t : Vec Ideal S256x1280 .f32) (ix2 j f)
      = m ((c : Thread nD τ).loc main_arg2) (ix2 j (⟨1280 * s + f.val, by omega⟩ : Fin 40960)) := by
  refine (Blocks.blk2 m c t j f).trans (congrArg _ (funext fun a => ?_))
  match a with
  | ⟨0, _⟩ => rfl
  | ⟨1, _⟩ => exact Fin.ext (by show 1280 * (t.val % 32) + f.val = 1280 * s + f.val; omega)

/-- One point's step of the white accumulator, read at a row and a unit: the stretch's products are added. -/
theorem step_white (c : Dev nD) (t : Fin cfg0.N) (q s : Nat) (hq : q < 4) (hs : s < 32) (ht : t.val = 32 * q + s)
    (acc : Vec Ideal S1024x256 .f32) (r : Fin 1024) (j : Fin 256) :
    k0_pay4 (iblk m c 2 t) (iblk m c 0 t) acc (ix2 r j)
      = acc (ix2 r j) + part (m ((c : Thread nD τ).loc main_arg0)) (m ((c : Thread nD τ).loc main_arg2)) (⟨1024 * q + r.val, by omega⟩ : Fin 4096) j s := by
  refine (Payload.acc_white_apply (iblk m c 2 t) (iblk m c 0 t) acc r j).trans ?_
  refine congrArg (acc (ix2 r j) + ·) (Finset.sum_congr rfl fun f _ => ?_)
  have hf : 1280 * s + f.val < 40960 := by have := f.isLt; omega
  rw [dif_pos hf, white_at m c t q s hq hs ht r f, weight_at m c t q s hs ht j f]

/-- One point's step of the black accumulator. -/
theorem step_black (c : Dev nD) (t : Fin cfg0.N) (q s : Nat) (hq : q < 4) (hs : s < 32) (ht : t.val = 32 * q + s)
    (acc : Vec Ideal S1024x256 .f32) (r : Fin 1024) (j : Fin 256) :
    k0_pay5 (iblk m c 2 t) (iblk m c 1 t) acc (ix2 r j)
      = acc (ix2 r j) + part (m ((c : Thread nD τ).loc main_arg1)) (m ((c : Thread nD τ).loc main_arg2)) (⟨1024 * q + r.val, by omega⟩ : Fin 4096) j s := by
  refine (Payload.acc_black_apply (iblk m c 2 t) (iblk m c 1 t) acc r j).trans ?_
  refine congrArg (acc (ix2 r j) + ·) (Finset.sum_congr rfl fun f _ => ?_)
  have hf : 1280 * s + f.val < 40960 := by have := f.isLt; omega
  rw [dif_pos hf, black_at m c t q s hq hs ht r f, weight_at m c t q s hs ht j f]

/-- The same point named twice. -/
theorem same (c : Dev nD) (u v : Nat) (hu : u < cfg0.N) (hv : v < cfg0.N) (e : u = v) : outsAt0 m c u hu = outsAt0 m c v hv := by
  subst e; rfl

/-- After the point of tile `q`, stretch `s`, the white accumulator holds the products of the stretches up to `s`. -/
theorem white_acc (c : Dev nD) (q : Nat) (hq : q < 4) : ∀ (s : Nat) (hs : s < 32) (h : 32 * q + s < cfg0.N) (r : Fin 1024) (j : Fin 256),
    (outsAt0 m c (32 * q + s) h).2.1 (ix2 r j)
      = 0 + ∑ s' ∈ Finset.range (s + 1), part (m ((c : Thread nD τ).loc main_arg0)) (m ((c : Thread nD τ).loc main_arg2)) (⟨1024 * q + r.val, by omega⟩ : Fin 4096) j s'
  | 0, hs, h, r, j => by
    have h0 : (⟨32 * q + 0, h⟩ : Fin cfg0.N).val % 32 = 0 := by show (32 * q + 0) % 32 = 0; omega
    have h1 : ¬(⟨32 * q + 0, h⟩ : Fin cfg0.N).val % 32 = 31 := by show ¬(32 * q + 0) % 32 = 31; omega
    rw [outsAt0_A m c ⟨32 * q + 0, h⟩ h0 h1]
    dsimp only
    rw [Pieces.scratch0_A, step_white m c ⟨32 * q + 0, h⟩ q 0 hq hs rfl, Payload.zero1_apply, Finset.sum_range_one]
  | s + 1, hs, h, r, j => by
    have h0 : ¬(⟨32 * q + (s + 1), h⟩ : Fin cfg0.N).val % 32 = 0 := by show ¬(32 * q + (s + 1)) % 32 = 0; omega
    have ih := white_acc c q hq s (by omega) (by omega) r j
    have prev : ∀ hp, (outsAt0 m c ((⟨32 * q + (s + 1), h⟩ : Fin cfg0.N).val - 1) hp).2.1 (ix2 r j) = (outsAt0 m c (32 * q + s) (by omega)).2.1 (ix2 r j) := fun hp =>
      congrFun (congrArg (fun o => o.2.1) (same m c _ _ hp _ (by show 32 * q + (s + 1) - 1 = 32 * q + s; omega))) (ix2 r j)
    by_cases h1 : (⟨32 * q + (s + 1), h⟩ : Fin cfg0.N).val % 32 = 31
    · rw [outsAt0_C m c ⟨32 * q + (s + 1), h⟩ h0 h1]
      dsimp only
      rw [Pieces.scratch0_C, step_white m c ⟨32 * q + (s + 1), h⟩ q (s + 1) hq hs rfl, Finset.sum_range_succ, ← add_assoc (0 : EReal)]
      exact congrArg (· + _) ((prev _).trans ih)
    · rw [outsAt0_B m c ⟨32 * q + (s + 1), h⟩ h0 h1]
      dsimp only
      rw [Pieces.scratch0_B, step_white m c ⟨32 * q + (s + 1), h⟩ q (s + 1) hq hs rfl, Finset.sum_range_succ, ← add_assoc (0 : EReal)]
      exact congrArg (· + _) ((prev _).trans ih)

/-- After the point of tile `q`, stretch `s`, the black accumulator holds the products of the stretches up to `s`. -/
theorem black_acc (c : Dev nD) (q : Nat) (hq : q < 4) : ∀ (s : Nat) (hs : s < 32) (h : 32 * q + s < cfg0.N) (r : Fin 1024) (j : Fin 256),
    (outsAt0 m c (32 * q + s) h).2.2 (ix2 r j)
      = 0 + ∑ s' ∈ Finset.range (s + 1), part (m ((c : Thread nD τ).loc main_arg1)) (m ((c : Thread nD τ).loc main_arg2)) (⟨1024 * q + r.val, by omega⟩ : Fin 4096) j s'
  | 0, hs, h, r, j => by
    have h0 : (⟨32 * q + 0, h⟩ : Fin cfg0.N).val % 32 = 0 := by show (32 * q + 0) % 32 = 0; omega
    have h1 : ¬(⟨32 * q + 0, h⟩ : Fin cfg0.N).val % 32 = 31 := by show ¬(32 * q + 0) % 32 = 31; omega
    rw [outsAt0_A m c ⟨32 * q + 0, h⟩ h0 h1]
    dsimp only
    rw [Pieces.scratch1_A, step_black m c ⟨32 * q + 0, h⟩ q 0 hq hs rfl, Payload.zero2_apply, Finset.sum_range_one]
  | s + 1, hs, h, r, j => by
    have h0 : ¬(⟨32 * q + (s + 1), h⟩ : Fin cfg0.N).val % 32 = 0 := by show ¬(32 * q + (s + 1)) % 32 = 0; omega
    have ih := black_acc c q hq s (by omega) (by omega) r j
    have prev : ∀ hp, (outsAt0 m c ((⟨32 * q + (s + 1), h⟩ : Fin cfg0.N).val - 1) hp).2.2 (ix2 r j) = (outsAt0 m c (32 * q + s) (by omega)).2.2 (ix2 r j) := fun hp =>
      congrFun (congrArg (fun o => o.2.2) (same m c _ _ hp _ (by show 32 * q + (s + 1) - 1 = 32 * q + s; omega))) (ix2 r j)
    by_cases h1 : (⟨32 * q + (s + 1), h⟩ : Fin cfg0.N).val % 32 = 31
    · rw [outsAt0_C m c ⟨32 * q + (s + 1), h⟩ h0 h1]
      dsimp only
      rw [Pieces.scratch1_C, step_black m c ⟨32 * q + (s + 1), h⟩ q (s + 1) hq hs rfl, Finset.sum_range_succ, ← add_assoc (0 : EReal)]
      exact congrArg (· + _) ((prev _).trans ih)
    · rw [outsAt0_B m c ⟨32 * q + (s + 1), h⟩ h0 h1]
      dsimp only
      rw [Pieces.scratch1_B, step_black m c ⟨32 * q + (s + 1), h⟩ q (s + 1) hq hs rfl, Finset.sum_range_succ, ← add_assoc (0 : EReal)]
      exact congrArg (· + _) ((prev _).trans ih)

/-- After a tile's last stretch the white accumulator holds the whole feature sum of its row and unit. -/
theorem white_full (c : Dev nD) (q : Nat) (hq : q < 4) (h : 32 * q + 31 < cfg0.N) (r : Fin 1024) (j : Fin 256) :
    (outsAt0 m c (32 * q + 31) h).2.1 (ix2 r j)
      = full (m ((c : Thread nD τ).loc main_arg0)) (m ((c : Thread nD τ).loc main_arg2)) (⟨1024 * q + r.val, by omega⟩ : Fin 4096) j := by
  rw [white_acc m c q hq 31 (by omega) h r j, zero_add]
  exact sum_part _ _ _ j

/-- After a tile's last stretch the black accumulator holds the whole feature sum of its row and unit. -/
theorem black_full (c : Dev nD) (q : Nat) (hq : q < 4) (h : 32 * q + 31 < cfg0.N) (r : Fin 1024) (j : Fin 256) :
    (outsAt0 m c (32 * q + 31) h).2.2 (ix2 r j)
      = full (m ((c : Thread nD τ).loc main_arg1)) (m ((c : Thread nD τ).loc main_arg2)) (⟨1024 * q + r.val, by omega⟩ : Fin 4096) j := by
  rw [black_acc m c q hq 31 (by omega) h r j, zero_add]
  exact sum_part _ _ _ j

end Cert.Nnue.Accum

end
-- ==== Proof.Final.lean ====
/-
  The kernel's result array is the network.

  The result array (4096 × 1) is written one block of 1024 rows per tile, at the tile's last feature stretch only.  At
  that point the two accumulators hold the whole feature sums of the tile's rows (the 32 stretches together are the
  40960 features), and the block stored is the rest of the network applied to them: row `r` of tile `q` is row
  `1024 q + r` of the specification.  The four tiles' blocks cover the 4096 rows, so the array ends as the specification
  of the argument arrays.
-/
import proofs.«130998_j17420387352988_1_alg».proof.Proof.Gen.KernelIdeal.Frame
import proofs.«130998_j17420387352988_1_alg».proof.Proof.Spec
import proofs.«130998_j17420387352988_1_alg».proof.Proof.Pieces
import proofs.«130998_j17420387352988_1_alg».proof.Proof.Blocks
import proofs.«130998_j17420387352988_1_alg».proof.Proof.Payload
import proofs.«130998_j17420387352988_1_alg».proof.Proof.Accum
import proofs.«130998_j17420387352988_1_alg».proof.Proof.Gen.KernelIdeal.Value
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

open scoped BigOperators

namespace Cert.Nnue.Final
open Cert.KernelIdeal Cert.KernelIdeal.Gen Idealize.ShloMosaic.ValueIdx
variable (m : (ℓ : Loc nD τ sig) → Buf (Elt Ideal) ℓ) (ρ : Dev nD → PrngReg)

/-- The specification at the kernel's argument arrays. -/
def result (c : Dev nD) : Vec Ideal S4096x1 .f32 :=
  Cert.Nnue.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- A row of the specification, the row named by its number. -/
theorem net_at (x0 x1 : FVec Ideal ⟨2, ![4096, 40960]⟩ .f32) (x2 : FVec Ideal ⟨2, ![256, 40960]⟩ .f32)
    (x3 : FVec Ideal ⟨1, ![256]⟩ .f32) (x4 : FVec Ideal ⟨2, ![32, 512]⟩ .f32) (x5 : FVec Ideal ⟨1, ![32]⟩ .f32)
    (x6 : FVec Ideal ⟨2, ![32, 32]⟩ .f32) (x7 : FVec Ideal ⟨1, ![32]⟩ .f32) (x8 : FVec Ideal ⟨2, ![1, 32]⟩ .f32)
    (x9 : FVec Ideal ⟨1, ![1]⟩ .f32) (i : (⟨2, ![4096, 1]⟩ : Shape).Idx) (b : Fin 4096) (hb : (i 0).val = b.val) :
    Cert.Nnue.net x0 x1 x2 x3 x4 x5 x6 x7 x8 x9 i
      = Cert.Nnue.head (fun j => x3 (ix1 j))
          (fun u j => x4 (ix2 u (⟨j.val, by omega⟩ : Fin 512))) (fun u j => x4 (ix2 u (⟨256 + j.val, by omega⟩ : Fin 512)))
          (fun u => x5 (ix1 u)) (fun u j => x6 (ix2 u j)) (fun u => x7 (ix1 u)) (fun j => x8 (ix2 (0 : Fin 1) j)) (x9 (ix1 (0 : Fin 1)))
          (fun j => ∑ f : Fin 40960, x0 (ix2 b f) * x2 (ix2 j f)) (fun j => ∑ f : Fin 40960, x1 (ix2 b f) * x2 (ix2 j f)) := by
  obtain rfl : b = ⟨(i 0).val, idx2_lt0 i⟩ := Fin.ext hb.symm
  rfl

/-- At a tile's last stretch, the step applied to what the stretch before left IS what the point leaves (white). -/
theorem last_white (c : Dev nD) (t : Fin cfg0.N) (h0 : ¬t.val % 32 = 0) (h31 : t.val % 32 = 31) (hp : t.val - 1 < cfg0.N) :
    k0_pay4 (iblk m c 2 t) (iblk m c 0 t) (outsAt0 m c (t.val - 1) hp).2.1 = (outsAt0 m c t.val t.isLt).2.1 := by
  rw [outsAt0_C m c t h0 h31]
  dsimp only
  rw [Pieces.scratch0_C]

/-- The same for the black accumulator. -/
theorem last_black (c : Dev nD) (t : Fin cfg0.N) (h0 : ¬t.val % 32 = 0) (h31 : t.val % 32 = 31) (hp : t.val - 1 < cfg0.N) :
    k0_pay5 (iblk m c 2 t) (iblk m c 1 t) (outsAt0 m c (t.val - 1) hp).2.2 = (outsAt0 m c t.val t.isLt).2.2 := by
  rw [outsAt0_C m c t h0 h31]
  dsimp only
  rw [Pieces.scratch1_C]

/-- After a tile's last point the white accumulator holds the whole feature sums of the tile's rows. -/
theorem white_last (c : Dev nD) (t : Fin cfg0.N) (h31 : t.val % 32 = 31) (hq : t.val / 32 < 4) (r : Fin 1024) (j : Fin 256) :
    (outsAt0 m c t.val t.isLt).2.1 (ix2 r j)
      = Accum.full (m ((c : Thread nD τ).loc main_arg0)) (m ((c : Thread nD τ).loc main_arg2)) (⟨1024 * (t.val / 32) + r.val, by omega⟩ : Fin 4096) j := by
  have e : t.val = 32 * (t.val / 32) + 31 := by omega
  have hb : 32 * (t.val / 32) + 31 < cfg0.N := by rw [← e]; exact t.isLt
  exact (congrFun (congrArg (fun o => o.2.1) (Accum.same m c _ _ t.isLt hb e)) (ix2 r j)).trans (Accum.white_full m c (t.val / 32) hq hb r j)

/-- After a tile's last point the black accumulator holds the whole feature sums of the tile's rows. -/
theorem black_last (c : Dev nD) (t : Fin cfg0.N) (h31 : t.val % 32 = 31) (hq : t.val / 32 < 4) (r : Fin 1024) (j : Fin 256) :
    (outsAt0 m c t.val t.isLt).2.2 (ix2 r j)
      = Accum.full (m ((c : Thread nD τ).loc main_arg1)) (m ((c : Thread nD τ).loc main_arg2)) (⟨1024 * (t.val / 32) + r.val, by omega⟩ : Fin 4096) j := by
  have e : t.val = 32 * (t.val / 32) + 31 := by omega
  have hb : 32 * (t.val / 32) + 31 < cfg0.N := by rw [← e]; exact t.isLt
  exact (congrFun (congrArg (fun o => o.2.2) (Accum.same m c _ _ t.isLt hb e)) (ix2 r j)).trans (Accum.black_full m c (t.val / 32) hq hb r j)

/-- The rest of the network depends on its ten inputs only through their values. -/
theorem head_congr {b_in b_in' : Fin 256 → EReal} {wa wa' wb wb' : Fin 32 → Fin 256 → EReal} {b_h1 b_h1' : Fin 32 → EReal}
    {w_h2 w_h2' : Fin 32 → Fin 32 → EReal} {b_h2 b_h2' : Fin 32 → EReal} {w_out w_out' : Fin 32 → EReal} {b_out b_out' : EReal}
    {a1 a1' a2 a2' : Fin 256 → EReal}
    (e1 : ∀ j, b_in j = b_in' j) (e2 : ∀ u j, wa u j = wa' u j) (e3 : ∀ u j, wb u j = wb' u j) (e4 : ∀ u, b_h1 u = b_h1' u)
    (e5 : ∀ u j, w_h2 u j = w_h2' u j) (e6 : ∀ u, b_h2 u = b_h2' u) (e7 : ∀ j, w_out j = w_out' j) (e8 : b_out = b_out')
    (e9 : ∀ j, a1 j = a1' j) (e10 : ∀ j, a2 j = a2' j) :
    Cert.Nnue.head b_in wa wb b_h1 w_h2 b_h2 w_out b_out a1 a2 = Cert.Nnue.head b_in' wa' wb' b_h1' w_h2' b_h2' w_out' b_out' a1' a2' := by
  obtain rfl : b_in = b_in' := funext e1
  obtain rfl : wa = wa' := funext fun u => funext (e2 u)
  obtain rfl : wb = wb' := funext fun u => funext (e3 u)
  obtain rfl : b_h1 = b_h1' := funext e4
  obtain rfl : w_h2 = w_h2' := funext fun u => funext (e5 u)
  obtain rfl : b_h2 = b_h2' := funext e6
  obtain rfl : w_out = w_out' := funext e7
  obtain rfl : a1 = a1' := funext e9
  obtain rfl : a2 = a2' := funext e10
  rw [e8]

/-- WHAT A TILE'S LAST POINT WRITES BACK is the tile's block of the specification. -/
theorem flushed_eq (c : Dev nD) (t : Fin cfg0.N) (hf : (cfg0.win 11).flush t = true) :
    (dats m 0 c).flushed 11 t = ((cfg0.win 11).blk t).view.read (Elt Ideal) (result m c) := by
  have h31 : t.val % 32 = 31 := (flush0_11 t).mp hf
  have h0 : ¬t.val % 32 = 0 := by omega
  have hN : t.val < 128 := lt_of_lt_of_eq t.isLt (show cfg0.N = 128 from N_0)
  have hq : t.val / 32 < 4 := by omega
  rw [Value.flushed11_C m c t h0 h31, Pieces.out_C]
  funext y
  obtain ⟨r, z, rfl⟩ : ∃ (r : Fin 1024) (z : Fin 1), y = ix2 r z := ⟨y 0, y 1, eq_ix2 y⟩
  rw [View.read_apply, last_white m c t h0 h31, last_black m c t h0 h31]
  show k0_pay6 (k0_pay7 (outsAt0 m c t.val t.isLt).2.1 (iblk m c 3 t) (outsAt0 m c t.val t.isLt).2.2 (iblk m c 3 t) (iblk m c 4 t) (iblk m c 5 t) (iblk m c 6 t))
      k0_pay8 (iblk m c 7 t) (iblk m c 8 t) (iblk m c 9 t) (iblk m c 10 t) (ix2 r z)
    = result m c (((cfg0.win 11).blk t).view.emb (ix2 r z))
  refine (Payload.out_apply (outsAt0 m c t.val t.isLt).2.1 (outsAt0 m c t.val t.isLt).2.2 (iblk m c 3 t) (iblk m c 4 t) (iblk m c 5 t) (iblk m c 6 t) (iblk m c 7 t) (iblk m c 8 t) (iblk m c 9 t) (iblk m c 10 t) r z).trans ?_
  have hb : ((((cfg0.win 11).blk t).view.emb (ix2 r z)) 0).val = (⟨1024 * (t.val / 32) + r.val, by omega⟩ : Fin 4096).val := by
    show win0_11.index t 0 * 1024 + 1 * r.val = 1024 * (t.val / 32) + r.val
    rw [(Blocks.idx11 t).1]; omega
  unfold result
  rw [net_at _ _ _ _ _ _ _ _ _ _ _ _ hb]
  exact head_congr (fun j => Blocks.blk3 m c t 0 j) (fun u j => Blocks.blk4 m c t u j) (fun u j => Blocks.blk5 m c t u j)
    (fun u => Blocks.blk6 m c t 0 u) (fun u j => Blocks.blk7 m c t u j) (fun u => Blocks.blk8 m c t 0 u) (fun j => Blocks.blk9 m c t 0 j)
    (Blocks.blk10 m c t 0 0) (fun j => white_last m c t h31 hq r j) (fun j => black_last m c t h31 hq r j)

/-- An index of the result array is in point `t`'s block iff each coordinate is in the block's range on its axis. -/
theorem mem_blk (t : Fin cfg0.N) (i : S4096x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v6).slice (win0_11.rect t)).set ↔ _
  rw [View.set_slice_whole, Rect.mem_set_unit]
  exact Iff.rfl

/-- Every row of the result lies in the block some tile's last point writes back. -/
theorem cover (i : S4096x1.Idx) : ∃ t : Fin cfg0.N, (cfg0.win 11).flush t = true ∧ i ∈ ((cfg0.win 11).blk t).view.set := by
  have hi0 : (i 0).val < 4096 := (i 0).isLt
  have hi1 : (i 1).val < 1 := (i 1).isLt
  have hlt : 32 * ((i 0).val / 1024) + 31 < cfg0.N := by rw [show cfg0.N = 128 from N_0]; omega
  refine ⟨⟨32 * ((i 0).val / 1024) + 31, hlt⟩, (flush0_11 _).mpr (by show (32 * ((i 0).val / 1024) + 31) % 32 = 31; omega), ?_⟩
  rw [mem_blk]
  have e := Blocks.idx11 ⟨32 * ((i 0).val / 1024) + 31, hlt⟩
  have e0 : win0_11.index ⟨32 * ((i 0).val / 1024) + 31, hlt⟩ (0 : Fin 2) = (i 0).val / 1024 := by
    rw [e.1]; show (32 * ((i 0).val / 1024) + 31) / 32 = (i 0).val / 1024; omega
  intro a
  match a with
  | ⟨0, _⟩ => show win0_11.index _ (0 : Fin 2) * 1024 ≤ (i 0).val ∧ (i 0).val < win0_11.index _ (0 : Fin 2) * 1024 + 1024; rw [e0]; omega
  | ⟨1, _⟩ => show win0_11.index _ (1 : Fin 2) * 1 ≤ (i 1).val ∧ (i 1).val < win0_11.index _ (1 : Fin 2) * 1 + 1; rw [e.2]; omega

/-- So the result array ends as the specification of the argument arrays. -/
theorem final (c : Dev nD) : (dats m 0 c).arrAt 11 cfg0.N = result m c :=
  (dats m 0 c).arrAt_eq_of_cover 11 (result m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.Nnue.Final

end
-- ==== Proof.lean ====
/-
  The two-perspective feature network, computed by a tiled kernel, equals its plain reference over the extended reals.

  Both programs compute, for each of 4096 board rows, the same small function (`Cert.Nnue.head`: biases, clips to
  [0, 1], a 512 → 32 layer fed by the two perspectives, a 32 → 32 layer, a read-out) of the row's two feature sums
  `∑ f, x[b, f] · w_in[j, f]` over 40960 features.  The reference takes each sum in one contraction and joins the two
  perspectives into one row of 512 before the second layer; the kernel takes each sum in 32 stretches of 1280 features,
  carried in an accumulator across the grid, and keeps the two perspectives apart, adding the two halves of the second
  layer's products.  At the ideal reading a change of float format is the identity, so the only differences are the
  grouping of the sums, and addition of extended reals is commutative and associative: the precondition is never used.

  Spec.lean states the function; RefNet.lean shows the reference's result term is it; Pieces.lean, Blocks.lean,
  Payload.lean and Accum.lean read what the kernel leaves at each grid point; Final.lean shows its result array is it.
-/
import proofs.«130998_j17420387352988_1_alg».proof.Defs
import proofs.«130998_j17420387352988_1_alg».proof.Proof.Gen.Kernel
import proofs.«130998_j17420387352988_1_alg».proof.Proof.Gen.Kernel.Skeleton
import proofs.«130998_j17420387352988_1_alg».proof.Proof.Gen.Kernel.Launch
import proofs.«130998_j17420387352988_1_alg».proof.Proof.Gen.Kernel.Points
import proofs.«130998_j17420387352988_1_alg».proof.Proof.Gen.Kernel.Frame
import proofs.«130998_j17420387352988_1_alg».proof.Proof.Gen.KernelIdeal
import proofs.«130998_j17420387352988_1_alg».proof.Proof.Gen.KernelIdeal.Skeleton
import proofs.«130998_j17420387352988_1_alg».proof.Proof.Gen.KernelIdeal.Launch
import proofs.«130998_j17420387352988_1_alg».proof.Proof.Gen.KernelIdeal.Points
import proofs.«130998_j17420387352988_1_alg».proof.Proof.Gen.KernelIdeal.Frame
import proofs.«130998_j17420387352988_1_alg».proof.Proof.Gen.ReferenceIdeal
import proofs.«130998_j17420387352988_1_alg».proof.Proof.Gen.Pre_finite_inputs
import proofs.«130998_j17420387352988_1_alg».proof.Proof.Gen.KernelIdeal.Value
import proofs.«130998_j17420387352988_1_alg».proof.Proof.Gen.ReferenceIdeal.Run
import proofs.«130998_j17420387352988_1_alg».proof.Proof.Gen.ReferenceIdeal.Read
import proofs.«130998_j17420387352988_1_alg».proof.Proof.Spec
import proofs.«130998_j17420387352988_1_alg».proof.Proof.RefNet
import proofs.«130998_j17420387352988_1_alg».proof.Proof.Final
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its ideal reading. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- From arguments that agree, the kernel's result array and the reference's result are both the specification of the
    arguments: the kernel's by the accumulation over the grid, the reference's operation by operation. -/
theorem algebraic : Cert.algebraic_KernelIdeal_ReferenceIdeal := by
  intro m ρ m' ρ' _ hagree
  refine ⟨fun c => Cert.Nnue.Final.result m c, Cert.Nnue.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Nnue.Ref.ref_eq]
  obtain ⟨e0, e1, e2, e3, e4, e5, e6, e7, e8, e9⟩ := hagree c
  rw [e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
